-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S8192x4096 .f32) (main_arg1 : FVec F S4096x4096 .f32) (main_arg2 : FVec F S4096x4096 .f32) (main_arg3 : FVec F S4096 .f32) (main_arg4 : FVec F S4096 .f32) (main_arg5 : FVec F S4096x4096 .f32) (main_arg6 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩
abbrev S512x2048 : Shape := ⟨2, ![512, 2048]⟩
abbrev S1024x512 : Shape := ⟨2, ![1024, 512]⟩
abbrev S1x2048 : Shape := ⟨2, ![1, 2048]⟩
abbrev S1024x2048 : Shape := ⟨2, ![1024, 2048]⟩

abbrev nBuf : Space → Nat
  | .hbm => 26
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S4096, .i1⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S1x4096, .f32⟩
  | .hbm, ⟨24, _⟩ => ⟨S4096x4096, .bf16⟩
  | .hbm, ⟨25, _⟩ => ⟨S8192x4096, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | .local _ .vmem, ⟨8, _⟩ => ⟨S1024x512, .f32⟩
  | .local _ .vmem, ⟨9, _⟩ => ⟨S1024x512, .f32⟩
  | .local _ .vmem, ⟨10, _⟩ => ⟨S512x2048, .bf16⟩
  | .local _ .vmem, ⟨11, _⟩ => ⟨S512x2048, .bf16⟩
  | .local _ .vmem, ⟨12, _⟩ => ⟨S1x2048, .f32⟩
  | .local _ .vmem, ⟨13, _⟩ => ⟨S1x2048, .f32⟩
  | .local _ .vmem, ⟨14, _⟩ => ⟨S1024x2048, .f32⟩
  | .local _ .vmem, ⟨15, _⟩ => ⟨S1024x2048, .f32⟩
  | .local _ .vmem, ⟨16, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![8, 2, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bcast_S_S4096 : S_.BroadcastsInDim S4096 (![] : Fin 0 → Fin S4096.rank)
  shapeCasts_S4096_S1x4096 : S4096.ShapeCasts S1x4096
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  packedbf16_S512x2048_S512x2048_0_0 : (Rect.unit (s := S512x2048) ![0, 0] S512x2048.size inb_S512x2048_S512x2048_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x4096.size a
  hwx0_0 : ∀ i : grid0.Coords, EltTy.bits .f32 = 32 ∨ (Rect.block (s := S4096x4096) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x4096.size a
  hwx0_1 : ∀ i : grid0.Coords, EltTy.bits .f32 = 32 ∨ (Rect.block (s := S4096x4096) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x4096.size a
  hwx0_2 : ∀ i : grid0.Coords, EltTy.bits .f32 = 32 ∨ (Rect.block (s := S4096x4096) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x4096.size a
  hwx0_3 : ∀ i : grid0.Coords, EltTy.bits .bf16 = 32 ∨ (Rect.block (s := S4096x4096) S512x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .f32 = 32 ∨ (Rect.block (s := S8192x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S4096x4096.size a
  hwx1_1 : ∀ i : grid1.Coords, EltTy.bits .bf16 = 32 ∨ (Rect.block (s := S4096x4096) S512x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x4096.size a
  hwx1_3 : ∀ i : grid1.Coords, EltTy.bits .f32 = 32 ∨ (Rect.block (s := S8192x4096) S1024x2048.size (cc1_transform_3 i) (hinb1_3 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 43
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .i1⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S4096, .i1⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S8192x4096, .f32⟩
  | .hbm, ⟨40, _⟩ => ⟨S1x4096, .f32⟩
  | .hbm, ⟨41, _⟩ => ⟨S8192x4096, .f32⟩
  | .hbm, ⟨42, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_call1_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.WeightRegion.lean ====
/-
  The first kernel region: on a grid of 8 × 2 points it reads one 512 × 2048 block of each of the three weight
  arrays (mean, spread parameter, noise), and stores the block  mean + softplus(spread) · noise  as bf16 into the
  same block of the weight array. Each point's block depends only on the same block of the three inputs: one
  store that covers the whole staging buffer, a pointwise function of the three loaded blocks.

  Stated at a parameter `V`, the contents of the core's buffers when the region is entered: the block every window
  holds at a point, what the body leaves in the output's staging buffer, the body's triple, the region's proof
  data (nothing owed, the region invariant the untouched scoped rest) and the body obligation at every point.
  Everything is generic in the float instance.
-/
import proofs.«160198_j24034636989081_2_alg».proof.Proof.Gen.KernelIdeal.Launch
import proofs.«160198_j24034636989081_2_alg».proof.Proof.Gen.KernelIdeal.Skeleton
import proofs.«160198_j24034636989081_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The one rectangle the body loads and stores through: the whole 512 × 2048 block. -/
abbrev rW : Rect S512x2048 := Rect.unit (s := S512x2048) ![0, 0] S512x2048.size inb_S512x2048_S512x2048_0_0

/-- The output's staging buffer after the body, from the three input blocks: its one store as a piece. -/
def wblock (x0 x1 x2 : Vec F S512x2048 .f32) : Vec F S512x2048 .bf16 :=
  View.canon [⟨rW, k0_pay1 (View.ld x0 rW) (View.ld x1 rW) (View.ld x2 rW)⟩]

/-- That store covers the buffer. -/
theorem wblock_cover (p0 : Vec F S512x2048 .bf16) (y : S512x2048.Idx) :
    ∃ pc ∈ ([⟨rW, p0⟩] : List (View.Piece (Elt F) S512x2048 .bf16)), y ∈ pc.1.set :=
  View.cover_of_tiled [⟨rW, p0⟩] S512x2048.size (by rfl) y

/-! ## The body's triple -/

set_option maxHeartbeats 1000000 in
/-- On whole staging memrefs, the inputs' at contents `x0 x1 x2` and the output's at anything, the body runs to the
    continuation holding the inputs' as they were and the output's at `wblock x0 x1 x2`. -/
theorem sound_kernel0 (c : Dev nD) (E : Set ℕ) (i : grid0.Coords) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .bf16) (harg5 : arg5.IsWhole)
    (x0 x1 x2 : Vec F S512x2048 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (wblock x0 x1 x2)) -∗ K ⟨⟩))
      ⊢ wp frame (wpE (defs₀ (F := F)) Variants.none c none) E (cc0__build_w_kernel i arg2 harg2 arg3 harg3 arg4 harg4 arg5 harg5) K := by
  simp only [cc0__build_w_kernel_eq_skeleton]; unfold cc0__build_w_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (wblock_cover _)

/-! ## The region's proof data -/

/-- The arrays as the region finds them; after the body at point `t` each input's buffer at its block and the
    output's at `wblock` of the three input blocks; the invariant the untouched scoped rest; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => wblock (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = wblock (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.MatmulRuns.lean ====
/-
  The second kernel region: a 1024 × 2048 output tile is the product of a 1024 × 4096 strip of the activations and
  a 4096 × 2048 strip of the weights, accumulated over 8 blocks of 512 along the contracted axis in a scratch
  buffer the kernel keeps between grid points: the scratch is zeroed at the first block, every block adds its
  1024 × 512 by 512 × 2048 product, and at the last block the bias row is added and the tile stored.

  This module: the block every window holds at a point; the two conditions of the body (first block, last block)
  in closed form over the grid; where the output window is idle; and the body run whole in each of the three
  cases (first block / a middle block / last block), the pieces each buffer ends with found by the run.
  Generic in the float instance.
-/
import proofs.«160198_j24034636989081_2_alg».proof.Proof.Gen.KernelIdeal.Launch
import proofs.«160198_j24034636989081_2_alg».proof.Proof.Gen.KernelIdeal.Skeleton
import proofs.«160198_j24034636989081_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched its block index has not moved), for any proof data whose array is `V`'s and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "This is the first block of the contracted axis", as the body computes it from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 8): the grid is 8 × 2 × 8 in row-major order, the contracted axis last. -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last block of the contracted axis". -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At a first block the output window is idle (nothing is stored into it) and is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- The same at a middle block. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At a last block the output window is live. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated. -/
abbrev VO1_3 : View sig .tc .vmem S1024x2048 .f32 := (Memref.whole cc1_stg3_0 : Memref sig .tc .vmem S1024x2048 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S1024x2048 .f32 := Memref.whole cc1_scratch0
abbrev VS1_0 : View sig .tc .vmem S1024x2048 .f32 := scM1_0.view

/-- A scoped buffer whole at some contents. -/
abbrev anyAt (c : Dev nD) (b : Ref sig .tc) : sProp 𝕄 :=
  iprop(∃ f : Buf (Elt F) ((c : Thread nD τ).loc b), ((c : Thread nD τ).loc b) ↦{fullShare} f)

/-- The region's invariant before its first point, the scoped buffers that are no staging buffer of this region
    one by one: the first region's eight staging buffers at anything, the accumulator owned at some contents, and
    the generator register. -/
theorem PhiA1_eq (c : Dev nD) :
    (Pipeline.ΦA spec1 c : sProp 𝕄)
      = iprop(iprop(anyAt c cc0_stg0_0 ∗ anyAt c cc0_stg0_1 ∗ anyAt c cc0_stg1_0 ∗ anyAt c cc0_stg1_1 ∗ anyAt c cc0_stg2_0 ∗ anyAt c cc0_stg2_1 ∗ anyAt c cc0_stg3_0 ∗ anyAt c cc0_stg3_1 ∗ (∃ d, owns (c : Thread nD τ) scM1_0 fullShare d)) ∗ (∃ r, prngReg c r)) := by
  unfold Pipeline.ΦA; rw [scopedRest1_eq]; simp only [scM1_0, owns_whole]; try rfl

/-! ## The body run whole, case by case -/

set_option maxHeartbeats 1000000 in
/-- FIRST BLOCK. On whole memrefs — the inputs' at their contents, the idle output's at contents handed back
    untouched, the accumulator at anything — the body runs to the continuation holding the inputs' and the output's
    as they were and the accumulator with the found pieces written. -/
noncomputable def kernelRun1_A (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S512x2048 .bf16) (x2 : Vec F S1x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- A MIDDLE BLOCK: the same with the accumulator at the contents `xs0` the point before left. -/
noncomputable def kernelRun1_B (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S512x2048 .bf16) (x2 : Vec F S1x2048 .f32) (xs0 : Vec F S1024x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- LAST BLOCK: the accumulator at what the point before left, the output's buffer at anything; both end with the
    found pieces written. -/
noncomputable def kernelRun1_C (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S512x2048 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Fr

end
-- ==== Proof.MatmulRegion.lean ====
/-
  The second kernel region, continued: what each of the three cases leaves in the output's staging buffer and in
  the accumulator; THE ACCUMULATION, point by point — after the body at point n the accumulator holds what the case
  at n makes of the point's input blocks and (but at a first block) of what point n − 1 left in it; the region
  invariant, which carries the accumulator at those contents from one point to the next; the region's proof data;
  and the body obligation at every point, by cases on the point's position along the contracted axis.
  Generic in the float instance.
-/
import proofs.«160198_j24034636989081_2_alg».proof.Proof.Gen.KernelIdeal.Launch
import proofs.«160198_j24034636989081_2_alg».proof.Proof.Gen.KernelIdeal.Skeleton
import proofs.«160198_j24034636989081_2_alg».proof.Proof.Gen.KernelIdeal.Points
import proofs.«160198_j24034636989081_2_alg».proof.Proof.MatmulRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- What this case leaves in the output's staging buffer: its pieces read back (none: a placeholder nothing consults, the window being idle and not written back there). -/
def out1_A_3 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S512x2048 .bf16) (x2 : Vec F S1x2048 .f32) : Vec F S1024x2048 .f32 :=
  VO1_3.read (Elt F) (VO1_3.writes (Elt F) VO1_3.junk (kernelRun1_A c i arg3 harg3 arg4 harg4 arg5 harg5 arg6 harg6 arg7 harg7 hc0 hc1 x0 x1 x2).1)

/-- The pieces for the accumulator tile it, so they cover it. -/
theorem scover1_A_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S512x2048 .bf16) (x2 : Vec F S1x2048 .f32) (y : S1024x2048.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x2048.size (by sl_kernel_rfl) y

/-- What this case leaves in the accumulator: its pieces read back. -/
def sout1_A_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S512x2048 .bf16) (x2 : Vec F S1x2048 .f32) : Vec F S1024x2048 .f32 :=
  VS1_0.read (Elt F) (VS1_0.writes (Elt F) VS1_0.junk (kernelRun1_A c i arg3 harg3 arg4 harg4 arg5 harg5 arg6 harg6 arg7 harg7 hc0 hc1 x0 x1 x2).2.1)

/-- What this case leaves in the output's staging buffer: its pieces read back (none: a placeholder nothing consults, the window being idle and not written back there). -/
def out1_B_3 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S512x2048 .bf16) (x2 : Vec F S1x2048 .f32) (xs0 : Vec F S1024x2048 .f32) : Vec F S1024x2048 .f32 :=
  VO1_3.read (Elt F) (VO1_3.writes (Elt F) VO1_3.junk (kernelRun1_B c i arg3 harg3 arg4 harg4 arg5 harg5 arg6 harg6 arg7 harg7 hc0 hc1 x0 x1 x2 xs0).1)

/-- The pieces for the accumulator tile it, so they cover it. -/
theorem scover1_B_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S512x2048 .bf16) (x2 : Vec F S1x2048 .f32) (xs0 : Vec F S1024x2048 .f32) (y : S1024x2048.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x2048.size (by sl_kernel_rfl) y

/-- What this case leaves in the accumulator: its pieces read back. -/
def sout1_B_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S512x2048 .bf16) (x2 : Vec F S1x2048 .f32) (xs0 : Vec F S1024x2048 .f32) : Vec F S1024x2048 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- At a last block the pieces for the output tile it (one store of the whole tile), so they cover it. -/
theorem cover1_C_3 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S512x2048 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x2048.size (by sl_kernel_rfl) y

/-- What this case leaves in the output's staging buffer: its pieces read back. -/
def out1_C_3 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S512x2048 .bf16) (x2 : Vec F S1x2048 .f32) (xs0 : Vec F S1024x2048 .f32) : Vec F S1024x2048 .f32 :=
  VO1_3.read (Elt F) (VO1_3.writes (Elt F) VO1_3.junk (kernelRun1_C c i arg3 harg3 arg4 harg4 arg5 harg5 arg6 harg6 arg7 harg7 hc0 hc1 x0 x1 x2 xs0).1)

/-- The pieces for the accumulator tile it, so they cover it. -/
theorem scover1_C_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S512x2048 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x2048.size (by sl_kernel_rfl) y

/-- What this case leaves in the accumulator: its pieces read back. -/
def sout1_C_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S512x2048 .bf16) (x2 : Vec F S1x2048 .f32) (xs0 : Vec F S1024x2048 .f32) : Vec F S1024x2048 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the buffers hold after each point -/

/-- THE ACCUMULATION: the output's staging buffer and the accumulator after the body at position `n` (a pair): the
    case the position selects, run at the point's memrefs and input blocks, the accumulator it starts from what
    this leaves at `n - 1`. No position is both a first and a last block. -/
def outsAt1 (c : Dev nD) : (n : ℕ) → n < cfg1.N → Vec F S1024x2048 .f32 × Vec F S1024x2048 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a first block: that case's contents. -/
theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a middle block: that case's contents, over what the point before left. -/
theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last block: that case's contents, over what the point before left. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point the scoped rest as the region finds it; afterwards the same with
    the accumulator at what the point before left in it. -/
def PhiS (c : Dev nD) : (n : ℕ) → n ≤ cfg1.N → sProp 𝕄
  | 0, _ => Pipeline.ΦA spec1 c
  | n + 1, hn => iprop(iprop(anyAt c cc0_stg0_0 ∗ anyAt c cc0_stg0_1 ∗ anyAt c cc0_stg1_0 ∗ anyAt c cc0_stg1_1 ∗ anyAt c cc0_stg2_0 ∗ anyAt c cc0_stg2_1 ∗ anyAt c cc0_stg3_0 ∗ anyAt c cc0_stg3_1 ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(anyAt c cc0_stg0_0 ∗ anyAt c cc0_stg0_1 ∗ anyAt c cc0_stg1_0 ∗ anyAt c cc0_stg1_1 ∗ anyAt c cc0_stg2_0 ∗ anyAt c cc0_stg2_1 ∗ anyAt c cc0_stg3_0 ∗ anyAt c cc0_stg3_1 ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop(anyAt c cc0_stg0_0 ∗ anyAt c cc0_stg0_1 ∗ anyAt c cc0_stg1_0 ∗ anyAt c cc0_stg1_1 ∗ anyAt c cc0_stg2_0 ∗ anyAt c cc0_stg2_1 ∗ anyAt c cc0_stg3_0 ∗ anyAt c cc0_stg3_1 ∗ owns (c : Thread nD τ) scM1_0 fullShare ((outsAt1 V c (n - 1) (by omega)).2)) ∗ (∃ r, prngReg c r)) := by
  cases n with
  | zero => exact absurd rfl hz
  | succ n => rfl

/-! ## The region's proof data -/

/-- The arrays as the region finds them; after the body at point `t` each input's buffer at its block and the
    output's at the accumulation's first component; the invariant `PhiS`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the position along the contracted axis says which
    case the point is in; the invariant hands the body the accumulator at what the point before left (at anything
    at the very first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨Ha, Hb, Hc, Hd, He, Hf, Hg8, Hh, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Ha Hb Hc Hd He Hf Hg8 Hh HS0 Hg]
        · isplitl [Ha Hb Hc Hd He Hf Hg8 Hh HS0]
          ·
            isplitl [Ha]; · iexact Ha
            isplitl [Hb]; · iexact Hb
            isplitl [Hc]; · iexact Hc
            isplitl [Hd]; · iexact Hd
            isplitl [He]; · iexact He
            isplitl [Hf]; · iexact Hf
            isplitl [Hg8]; · iexact Hg8
            isplitl [Hh]; · iexact Hh
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨Ha, Hb, Hc, Hd, He, Hf, Hg8, Hh, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [Ha Hb Hc Hd He Hf Hg8 Hh HS0 Hg]
        · isplitl [Ha Hb Hc Hd He Hf Hg8 Hh HS0]
          ·
            isplitl [Ha]; · iexact Ha
            isplitl [Hb]; · iexact Hb
            isplitl [Hc]; · iexact Hc
            isplitl [Hd]; · iexact Hd
            isplitl [He]; · iexact He
            isplitl [Hf]; · iexact Hf
            isplitl [Hg8]; · iexact Hg8
            isplitl [Hh]; · iexact Hh
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      have hz : t.val ≠ 0 := fun hz => h0 (by rw [hz])
      rw [PhiS_castSucc V c t, PhiS_pos V c _ _ hz]
      iintro ⟨⟨⟨Ha, Hb, Hc, Hd, He, Hf, Hg8, Hh, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Ha Hb Hc Hd He Hf Hg8 Hh HS0 Hg]
      · isplitl [Ha Hb Hc Hd He Hf Hg8 Hh HS0]
        ·
          isplitl [Ha]; · iexact Ha
          isplitl [Hb]; · iexact Hb
          isplitl [Hc]; · iexact Hc
          isplitl [Hd]; · iexact Hd
          isplitl [He]; · iexact He
          isplitl [Hf]; · iexact Hf
          isplitl [Hg8]; · iexact Hg8
          isplitl [Hh]; · iexact Hh
          unfold owns; iexists _; isplitr
          swap; · iexact HS0
          ipureintro; exact View.read_writes_of_cover _ _ _ _ _ (scover1_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      have hz : t.val ≠ 0 := fun hz => h0 (by rw [hz])
      rw [PhiS_castSucc V c t, PhiS_pos V c _ _ hz]
      iintro ⟨⟨⟨Ha, Hb, Hc, Hd, He, Hf, Hg8, Hh, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Ha Hb Hc Hd He Hf Hg8 Hh HS0 Hg]
      · isplitl [Ha Hb Hc Hd He Hf Hg8 Hh HS0]
        ·
          isplitl [Ha]; · iexact Ha
          isplitl [Hb]; · iexact Hb
          isplitl [Hc]; · iexact Hc
          isplitl [Hd]; · iexact Hd
          isplitl [He]; · iexact He
          isplitl [Hf]; · iexact Hf
          isplitl [Hg8]; · iexact Hg8
          isplitl [Hh]; · iexact Hh
          unfold owns; iexists _; isplitr
          swap; · iexact HS0
          ipureintro; exact View.read_writes_of_cover _ _ _ _ _ (scover1_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped rest back: the accumulator's contents are forgotten. -/
theorem hout1 (c : Dev nD) : (dat1 V c).Φ (Fin.last cfg1.N) ⊢ Pipeline.ΦA spec1 c := by
  have hN : cfg1.N = 128 := N_1
  rw [show (dat1 V c).Φ (Fin.last cfg1.N) = PhiS V c (Fin.last cfg1.N).val (Nat.le_of_lt_succ (Fin.last cfg1.N).isLt) from rfl,
    PhiS_pos V c _ _ (by rw [Fin.val_last]; omega), PhiA1_eq]
  iintro ⟨⟨Ha, Hb, Hc, Hd, He, Hf, Hg8, Hh, HS0⟩, Hg⟩
  isplitl [Ha Hb Hc Hd He Hf Hg8 Hh HS0]
  ·
    isplitl [Ha]; · iexact Ha
    isplitl [Hb]; · iexact Hb
    isplitl [Hc]; · iexact Hc
    isplitl [Hd]; · iexact Hd
    isplitl [He]; · iexact He
    isplitl [Hf]; · iexact Hf
    isplitl [Hg8]; · iexact Hg8
    isplitl [Hh]; · iexact Hh
    iexists _; iexact HS0
  iexact Hg

end Cert.KernelIdeal.Fr

end
-- ==== Proof.WholeRun.lean ====
/-
  The whole program's run: two stretches of host operations (the bias vector's softplus, then bias = mean +
  softplus(spread) · noise and its reshape to a row), the weight-building region, the matmul region.
  The contents of every unscoped buffer at each boundary are named: the launch memory, then each host stretch
  applied, then each region's arrays at what its write-backs leave and every other buffer as entered.
  Each region is a record over the thread state "every unscoped buffer at the boundary's contents, the generator
  register at some state, nothing owed"; the first region's invariant is the untouched scoped rest, the second's
  carries the accumulator. The run ends with EVERY unscoped buffer at the last boundary's contents; the argument
  arrays read back through the boundaries to the launch memory. Generic in the float instance.
-/
import proofs.«160198_j24034636989081_2_alg».proof.Proof.Gen.KernelIdeal.Launch
import proofs.«160198_j24034636989081_2_alg».proof.Proof.Gen.KernelIdeal.Skeleton
import proofs.«160198_j24034636989081_2_alg».proof.Proof.Gen.KernelIdeal.Points
import proofs.«160198_j24034636989081_2_alg».proof.Proof.Gen.KernelIdeal.Regions
import proofs.«160198_j24034636989081_2_alg».proof.Proof.WeightRegion
import proofs.«160198_j24034636989081_2_alg».proof.Proof.MatmulRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch, after the first host stretch, after the second (the first region's entry). -/
abbrev W0 : Dev nD → Valuation τ sig (Elt F) := fun c => Gen.V0 m c
abbrev W1 : Dev nD → Valuation τ sig (Elt F) := fun c => Gen.V1 m c
abbrev W2 : Dev nD → Valuation τ sig (Elt F) := fun c => Gen.V2 m c
/-- The same read at the TensorCore's references: what the first region's proof data take. -/
abbrev V2 : (c : Dev nD) → (b : Ref sig .tc) → Buf (Elt F) ((c : Thread nD τ).loc b) := fun c b => W2 m c b
/-- At the first region's exit: its arrays at what the pipeline leaves, every other buffer as entered. -/
def W3 (c : Dev nD) : Valuation τ sig (Elt F) :=
  Pipeline.withArrays spec0 c (W2 m c) fun w => (dat0 (V2 m) c).arrAt w cfg0.N
theorem W3_arr (c : Dev nD) (w : Fin cfg0.W) :
    W3 m c (Proc.devRef .tc (Pipeline.arrRef spec0 w)) = (dat0 (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev V3 : (c : Dev nD) → (b : Ref sig .tc) → Buf (Elt F) ((c : Thread nD τ).loc b) := fun c b => W3 m c b
theorem hF0 (c : Dev nD) (w : Fin cfg0.W) : (dat0 (V2 m) c).arrAt w cfg0.N = V3 m c (Pipeline.arrRef spec0 w) :=
  (W3_arr m c w).symm
theorem hrest0 (c : Dev nD) : ∀ b, b ∉ Finset.univ.image (Pipeline.arrRef spec0) → V3 m c b = V2 m c b :=
  fun b hb => W3_of_ne m c b fun w e => hb (Finset.mem_image.mpr ⟨w, Finset.mem_univ _, e⟩)

/-- At the second region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ### The arguments end as launched: no host operation writes one, and a region reads it through an input window
    or bypasses it -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 0).trans (((dat1 (V3 m) c).arrAt_in 0 rfl _).trans (A_eq1 (V3 m) c 0))
    _ = W2 m c (Proc.devRef .tc main_arg0) := W3_of_ne m c main_arg0 (by decide)
    _ = W1 m c (Proc.devRef .tc main_arg0) := Gen.V2_of m c main_arg0 (by decide)
    _ = W0 m c (Proc.devRef .tc main_arg0) := Gen.V1_of m c main_arg0 (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := (W3_arr m c 0).trans (((dat0 (V2 m) c).arrAt_in 0 rfl _).trans (A_eq0 (V2 m) c 0))
    _ = W1 m c (Proc.devRef .tc main_arg1) := Gen.V2_of m c main_arg1 (by decide)
    _ = W0 m c (Proc.devRef .tc main_arg1) := Gen.V1_of m c main_arg1 (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := (W3_arr m c 1).trans (((dat0 (V2 m) c).arrAt_in 1 rfl _).trans (A_eq0 (V2 m) c 1))
    _ = W1 m c (Proc.devRef .tc main_arg2) := Gen.V2_of m c main_arg2 (by decide)
    _ = W0 m c (Proc.devRef .tc main_arg2) := Gen.V1_of m c main_arg2 (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := Gen.V2_of m c main_arg3 (by decide)
    _ = W0 m c (Proc.devRef .tc main_arg3) := Gen.V1_of m c main_arg3 (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := Gen.V2_of m c main_arg4 (by decide)
    _ = W0 m c (Proc.devRef .tc main_arg4) := Gen.V1_of m c main_arg4 (by decide)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := (W3_arr m c 2).trans (((dat0 (V2 m) c).arrAt_in 2 rfl _).trans (A_eq0 (V2 m) c 2))
    _ = W1 m c (Proc.devRef .tc main_arg5) := Gen.V2_of m c main_arg5 (by decide)
    _ = W0 m c (Proc.devRef .tc main_arg5) := Gen.V1_of m c main_arg5 (by decide)
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := W3_of_ne m c main_arg6 (by decide)
    _ = W1 m c (Proc.devRef .tc main_arg6) := Gen.V2_of m c main_arg6 (by decide)
    _ = W0 m c (Proc.devRef .tc main_arg6) := Gen.V1_of m c main_arg6 (by decide)
    _ = m ((c : Thread nD τ).loc main_arg6) := rfl

/-- The result array ends at what the matmul region's write-backs leave in it. -/
theorem W4_main_v5 (c : Dev nD) : W4 m c (Proc.devRef .tc main_v5) = (dat1 (V3 m) c).arrAt 3 cfg1.N :=
  W4_arr m c 3

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (V2 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The weight-building region: entered from every unscoped buffer at `W2`, left at `W3`. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (V2 m c) (V3 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matmul region: entered from `W3`, left at `W4`; its invariant carries the accumulator between points and
    forgets it at the exit. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    iintro ⟨Hp, -, Hr⟩
    iapply (hin1 (V3 m) c)
    unfold Pipeline.ΦA
    isplitl [Hr]; · iexact Hr
    iexact Hp
  hout c := by
    rw [Pipeline.ownSems0_none, show (pdats m 1 c).Φ (Fin.last _) = (dat1 (V3 m) c).Φ (Fin.last cfg1.N) from rfl]
    have h2 : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (hout1 (V3 m) c).trans h2
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) Gen.adm (pdats m) () defs₀ 𝒱₀ L lv) :=
  [ .host (hseg hostOps0 hostOps0_sub Gen.hostOps0_fresh (W0 m)),
    .host (hseg hostOps0_1 hostOps0_1_sub Gen.hostOps0_1_fresh (W1 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and every final state has every unscoped buffer at the last boundary's contents `W4`. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W4 m c (Proc.devRef .tc b)) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c b hb => h c _ (mem_uc b hb))

end Cert.KernelIdeal.Fr

end
-- ==== Proof.BitsWeightRegion.lean ====
/-
  The first kernel region: on a grid of 8 × 2 points it reads one 512 × 2048 block of each of the three weight
  arrays (mean, spread parameter, noise), and stores the block  mean + softplus(spread) · noise  as bf16 into the
  same block of the weight array. Each point's block depends only on the same block of the three inputs: one
  store that covers the whole staging buffer, a pointwise function of the three loaded blocks.

  Stated at a parameter `V`, the contents of the core's buffers when the region is entered: the block every window
  holds at a point, what the body leaves in the output's staging buffer, the body's triple, the region's proof
  data (nothing owed, the region invariant the untouched scoped rest) and the body obligation at every point.
  Everything is generic in the float instance.
-/
import proofs.«160198_j24034636989081_2_alg».proof.Proof.Gen.Kernel.Launch
import proofs.«160198_j24034636989081_2_alg».proof.Proof.Gen.Kernel.Skeleton
import proofs.«160198_j24034636989081_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The one rectangle the body loads and stores through: the whole 512 × 2048 block. -/
abbrev rW : Rect S512x2048 := Rect.unit (s := S512x2048) ![0, 0] S512x2048.size inb_S512x2048_S512x2048_0_0

/-- The output's staging buffer after the body, from the three input blocks: its one store as a piece. -/
def wblock (x0 x1 x2 : Vec F S512x2048 .f32) : Vec F S512x2048 .bf16 :=
  View.canon [⟨rW, k0_pay1 (View.ld x0 rW) (View.ld x1 rW) (View.ld x2 rW)⟩]

/-- That store covers the buffer. -/
theorem wblock_cover (p0 : Vec F S512x2048 .bf16) (y : S512x2048.Idx) :
    ∃ pc ∈ ([⟨rW, p0⟩] : List (View.Piece (Elt F) S512x2048 .bf16)), y ∈ pc.1.set :=
  View.cover_of_tiled [⟨rW, p0⟩] S512x2048.size (by rfl) y

/-! ## The body's triple -/

set_option maxHeartbeats 1000000 in
/-- On whole staging memrefs, the inputs' at contents `x0 x1 x2` and the output's at anything, the body runs to the
    continuation holding the inputs' as they were and the output's at `wblock x0 x1 x2`. -/
theorem sound_kernel0 (c : Dev nD) (E : Set ℕ) (i : grid0.Coords) (arg2 : Memref sig .tc .vmem S512x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .bf16) (harg5 : arg5.IsWhole)
    (x0 x1 x2 : Vec F S512x2048 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (wblock x0 x1 x2)) -∗ K ⟨⟩))
      ⊢ wp frame (wpE (defs₀ (F := F)) Variants.none c none) E (cc0__build_w_kernel i arg2 harg2 arg3 harg3 arg4 harg4 arg5 harg5) K := by
  simp only [cc0__build_w_kernel_eq_skeleton]; unfold cc0__build_w_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (wblock_cover _)

/-! ## The region's proof data -/

/-- The arrays as the region finds them; after the body at point `t` each input's buffer at its block and the
    output's at `wblock` of the three input blocks; the invariant the untouched scoped rest; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => wblock (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = wblock (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.BitsMatmulRuns.lean ====
/-
  The second kernel region: a 1024 × 2048 output tile is the product of a 1024 × 4096 strip of the activations and
  a 4096 × 2048 strip of the weights, accumulated over 8 blocks of 512 along the contracted axis in a scratch
  buffer the kernel keeps between grid points: the scratch is zeroed at the first block, every block adds its
  1024 × 512 by 512 × 2048 product, and at the last block the bias row is added and the tile stored.

  This module: the block every window holds at a point; the two conditions of the body (first block, last block)
  in closed form over the grid; where the output window is idle; and the body run whole in each of the three
  cases (first block / a middle block / last block), the pieces each buffer ends with found by the run.
  Generic in the float instance. (This copy is over the word-level program's printed text.)
-/
import proofs.«160198_j24034636989081_2_alg».proof.Proof.Gen.Kernel.Launch
import proofs.«160198_j24034636989081_2_alg».proof.Proof.Gen.Kernel.Skeleton
import proofs.«160198_j24034636989081_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched its block index has not moved), for any proof data whose array is `V`'s and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "This is the first block of the contracted axis", as the body computes it from the grid coordinates. -/
abbrev cond1_0 (i : grid1.Coords) : Prop := (Scalar.cmpi .ne (Scalar.extui (Scalar.cmpi .eq (BitVec.ofNat 32 (i 2).val) 0#32)) 0#32) = 1#1
/-- It holds at the points ≡ 0 (mod 8): the grid is 8 × 2 × 8 in row-major order, the contracted axis last. -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last block of the contracted axis". -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At a first block the output window is idle (nothing is stored into it) and is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- The same at a middle block. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At a last block the output window is live. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated. -/
abbrev VO1_3 : View sig .tc .vmem S1024x2048 .f32 := (Memref.whole cc1_stg3_0 : Memref sig .tc .vmem S1024x2048 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S1024x2048 .f32 := Memref.whole cc1_scratch0
abbrev VS1_0 : View sig .tc .vmem S1024x2048 .f32 := scM1_0.view

/-- A scoped buffer whole at some contents. -/
abbrev anyAt (c : Dev nD) (b : Ref sig .tc) : sProp 𝕄 :=
  iprop(∃ f : Buf (Elt F) ((c : Thread nD τ).loc b), ((c : Thread nD τ).loc b) ↦{fullShare} f)

/-- The region's invariant before its first point, the scoped buffers that are no staging buffer of this region
    one by one: the first region's eight staging buffers at anything, the accumulator owned at some contents, and
    the generator register. -/
theorem PhiA1_eq (c : Dev nD) :
    (Pipeline.ΦA spec1 c : sProp 𝕄)
      = iprop(iprop(anyAt c cc0_stg0_0 ∗ anyAt c cc0_stg0_1 ∗ anyAt c cc0_stg1_0 ∗ anyAt c cc0_stg1_1 ∗ anyAt c cc0_stg2_0 ∗ anyAt c cc0_stg2_1 ∗ anyAt c cc0_stg3_0 ∗ anyAt c cc0_stg3_1 ∗ (∃ d, owns (c : Thread nD τ) scM1_0 fullShare d)) ∗ (∃ r, prngReg c r)) := by
  unfold Pipeline.ΦA; rw [scopedRest1_eq]; simp only [scM1_0, owns_whole]; try rfl

/-! ## The body run whole, case by case -/

set_option maxHeartbeats 1000000 in
/-- FIRST BLOCK. On whole memrefs — the inputs' at their contents, the idle output's at contents handed back
    untouched, the accumulator at anything — the body runs to the continuation holding the inputs' and the output's
    as they were and the accumulator with the found pieces written. -/
noncomputable def kernelRun1_A (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S512x2048 .bf16) (x2 : Vec F S1x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- A MIDDLE BLOCK: the same with the accumulator at the contents `xs0` the point before left. -/
noncomputable def kernelRun1_B (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S512x2048 .bf16) (x2 : Vec F S1x2048 .f32) (xs0 : Vec F S1024x2048 .f32) :
    Σ' (L3 : List (View.Piece (Elt F) S1024x2048 .f32)), { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- LAST BLOCK: the accumulator at what the point before left, the output's buffer at anything; both end with the
    found pieces written. -/
noncomputable def kernelRun1_C (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S512x2048 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Fr

end
-- ==== Proof.BitsMatmulRegion.lean ====
/-
  The second kernel region, continued: what each of the three cases leaves in the output's staging buffer and in
  the accumulator; THE ACCUMULATION, point by point — after the body at point n the accumulator holds what the case
  at n makes of the point's input blocks and (but at a first block) of what point n − 1 left in it; the region
  invariant, which carries the accumulator at those contents from one point to the next; the region's proof data;
  and the body obligation at every point, by cases on the point's position along the contracted axis.
  Generic in the float instance. (This copy is over the word-level program's printed text.)
-/
import proofs.«160198_j24034636989081_2_alg».proof.Proof.Gen.Kernel.Launch
import proofs.«160198_j24034636989081_2_alg».proof.Proof.Gen.Kernel.Skeleton
import proofs.«160198_j24034636989081_2_alg».proof.Proof.Gen.Kernel.Points
import proofs.«160198_j24034636989081_2_alg».proof.Proof.BitsMatmulRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- What this case leaves in the output's staging buffer: its pieces read back (none: a placeholder nothing consults, the window being idle and not written back there). -/
def out1_A_3 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S512x2048 .bf16) (x2 : Vec F S1x2048 .f32) : Vec F S1024x2048 .f32 :=
  VO1_3.read (Elt F) (VO1_3.writes (Elt F) VO1_3.junk (kernelRun1_A c i arg3 harg3 arg4 harg4 arg5 harg5 arg6 harg6 arg7 harg7 hc0 hc1 x0 x1 x2).1)

/-- The pieces for the accumulator tile it, so they cover it. -/
theorem scover1_A_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S512x2048 .bf16) (x2 : Vec F S1x2048 .f32) (y : S1024x2048.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x2048.size (by sl_kernel_rfl) y

/-- What this case leaves in the accumulator: its pieces read back. -/
def sout1_A_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S512x2048 .bf16) (x2 : Vec F S1x2048 .f32) : Vec F S1024x2048 .f32 :=
  VS1_0.read (Elt F) (VS1_0.writes (Elt F) VS1_0.junk (kernelRun1_A c i arg3 harg3 arg4 harg4 arg5 harg5 arg6 harg6 arg7 harg7 hc0 hc1 x0 x1 x2).2.1)

/-- What this case leaves in the output's staging buffer: its pieces read back (none: a placeholder nothing consults, the window being idle and not written back there). -/
def out1_B_3 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S512x2048 .bf16) (x2 : Vec F S1x2048 .f32) (xs0 : Vec F S1024x2048 .f32) : Vec F S1024x2048 .f32 :=
  VO1_3.read (Elt F) (VO1_3.writes (Elt F) VO1_3.junk (kernelRun1_B c i arg3 harg3 arg4 harg4 arg5 harg5 arg6 harg6 arg7 harg7 hc0 hc1 x0 x1 x2 xs0).1)

/-- The pieces for the accumulator tile it, so they cover it. -/
theorem scover1_B_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S512x2048 .bf16) (x2 : Vec F S1x2048 .f32) (xs0 : Vec F S1024x2048 .f32) (y : S1024x2048.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x2048.size (by sl_kernel_rfl) y

/-- What this case leaves in the accumulator: its pieces read back. -/
def sout1_B_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S512x2048 .bf16) (x2 : Vec F S1x2048 .f32) (xs0 : Vec F S1024x2048 .f32) : Vec F S1024x2048 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- At a last block the pieces for the output tile it (one store of the whole tile), so they cover it. -/
theorem cover1_C_3 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S512x2048 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x2048.size (by sl_kernel_rfl) y

/-- What this case leaves in the output's staging buffer: its pieces read back. -/
def out1_C_3 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S512x2048 .bf16) (x2 : Vec F S1x2048 .f32) (xs0 : Vec F S1024x2048 .f32) : Vec F S1024x2048 .f32 :=
  VO1_3.read (Elt F) (VO1_3.writes (Elt F) VO1_3.junk (kernelRun1_C c i arg3 harg3 arg4 harg4 arg5 harg5 arg6 harg6 arg7 harg7 hc0 hc1 x0 x1 x2 xs0).1)

/-- The pieces for the accumulator tile it, so they cover it. -/
theorem scover1_C_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S512x2048 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x2048.size (by sl_kernel_rfl) y

/-- What this case leaves in the accumulator: its pieces read back. -/
def sout1_C_0 (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S512x2048 .bf16) (x2 : Vec F S1x2048 .f32) (xs0 : Vec F S1024x2048 .f32) : Vec F S1024x2048 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the buffers hold after each point -/

/-- THE ACCUMULATION: the output's staging buffer and the accumulator after the body at position `n` (a pair): the
    case the position selects, run at the point's memrefs and input blocks, the accumulator it starts from what
    this leaves at `n - 1`. No position is both a first and a last block. -/
def outsAt1 (c : Dev nD) : (n : ℕ) → n < cfg1.N → Vec F S1024x2048 .f32 × Vec F S1024x2048 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a first block: that case's contents. -/
theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a middle block: that case's contents, over what the point before left. -/
theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last block: that case's contents, over what the point before left. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- Before position `n`: before the first point the scoped rest as the region finds it; afterwards the same with
    the accumulator at what the point before left in it. -/
def PhiS (c : Dev nD) : (n : ℕ) → n ≤ cfg1.N → sProp 𝕄
  | 0, _ => Pipeline.ΦA spec1 c
  | n + 1, hn => iprop(iprop(anyAt c cc0_stg0_0 ∗ anyAt c cc0_stg0_1 ∗ anyAt c cc0_stg1_0 ∗ anyAt c cc0_stg1_1 ∗ anyAt c cc0_stg2_0 ∗ anyAt c cc0_stg2_1 ∗ anyAt c cc0_stg3_0 ∗ anyAt c cc0_stg3_1 ∗ owns (c : Thread nD τ) scM1_0 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(anyAt c cc0_stg0_0 ∗ anyAt c cc0_stg0_1 ∗ anyAt c cc0_stg1_0 ∗ anyAt c cc0_stg1_1 ∗ anyAt c cc0_stg2_0 ∗ anyAt c cc0_stg2_1 ∗ anyAt c cc0_stg3_0 ∗ anyAt c cc0_stg3_1 ∗ owns (c : Thread nD τ) scM1_0 fullShare ((outsAt1 V c n hn).2)) ∗ (∃ r, prngReg c r)) := rfl

theorem PhiS_pos (c : Dev nD) (n : ℕ) (h : n ≤ cfg1.N) (hz : n ≠ 0) :
    PhiS V c n h = iprop(iprop(anyAt c cc0_stg0_0 ∗ anyAt c cc0_stg0_1 ∗ anyAt c cc0_stg1_0 ∗ anyAt c cc0_stg1_1 ∗ anyAt c cc0_stg2_0 ∗ anyAt c cc0_stg2_1 ∗ anyAt c cc0_stg3_0 ∗ anyAt c cc0_stg3_1 ∗ owns (c : Thread nD τ) scM1_0 fullShare ((outsAt1 V c (n - 1) (by omega)).2)) ∗ (∃ r, prngReg c r)) := by
  cases n with
  | zero => exact absurd rfl hz
  | succ n => rfl

/-! ## The region's proof data -/

/-- The arrays as the region finds them; after the body at point `t` each input's buffer at its block and the
    output's at the accumulation's first component; the invariant `PhiS`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the position along the contracted axis says which
    case the point is in; the invariant hands the body the accumulator at what the point before left (at anything
    at the very first point) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS_zero V c _ _ hz, PhiA1_eq]
        iintro ⟨⟨⟨Ha, Hb, Hc, Hd, He, Hf, Hg8, Hh, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [Ha Hb Hc Hd He Hf Hg8 Hh HS0 Hg]
        · isplitl [Ha Hb Hc Hd He Hf Hg8 Hh HS0]
          ·
            isplitl [Ha]; · iexact Ha
            isplitl [Hb]; · iexact Hb
            isplitl [Hc]; · iexact Hc
            isplitl [Hd]; · iexact Hd
            isplitl [He]; · iexact He
            isplitl [Hf]; · iexact Hf
            isplitl [Hg8]; · iexact Hg8
            isplitl [Hh]; · iexact Hh
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨Ha, Hb, Hc, Hd, He, Hf, Hg8, Hh, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [Ha Hb Hc Hd He Hf Hg8 Hh HS0 Hg]
        · isplitl [Ha Hb Hc Hd He Hf Hg8 Hh HS0]
          ·
            isplitl [Ha]; · iexact Ha
            isplitl [Hb]; · iexact Hb
            isplitl [Hc]; · iexact Hc
            isplitl [Hd]; · iexact Hd
            isplitl [He]; · iexact He
            isplitl [Hf]; · iexact Hf
            isplitl [Hg8]; · iexact Hg8
            isplitl [Hh]; · iexact Hh
            unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      have hz : t.val ≠ 0 := fun hz => h0 (by rw [hz])
      rw [PhiS_castSucc V c t, PhiS_pos V c _ _ hz]
      iintro ⟨⟨⟨Ha, Hb, Hc, Hd, He, Hf, Hg8, Hh, HS0⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Ha Hb Hc Hd He Hf Hg8 Hh HS0 Hg]
      · isplitl [Ha Hb Hc Hd He Hf Hg8 Hh HS0]
        ·
          isplitl [Ha]; · iexact Ha
          isplitl [Hb]; · iexact Hb
          isplitl [Hc]; · iexact Hc
          isplitl [Hd]; · iexact Hd
          isplitl [He]; · iexact He
          isplitl [Hf]; · iexact Hf
          isplitl [Hg8]; · iexact Hg8
          isplitl [Hh]; · iexact Hh
          unfold owns; iexists _; isplitr
          swap; · iexact HS0
          ipureintro; exact View.read_writes_of_cover _ _ _ _ _ (scover1_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      have hz : t.val ≠ 0 := fun hz => h0 (by rw [hz])
      rw [PhiS_castSucc V c t, PhiS_pos V c _ _ hz]
      iintro ⟨⟨⟨Ha, Hb, Hc, Hd, He, Hf, Hg8, Hh, HS0⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Ha Hb Hc Hd He Hf Hg8 Hh HS0 Hg]
      · isplitl [Ha Hb Hc Hd He Hf Hg8 Hh HS0]
        ·
          isplitl [Ha]; · iexact Ha
          isplitl [Hb]; · iexact Hb
          isplitl [Hc]; · iexact Hc
          isplitl [Hd]; · iexact Hd
          isplitl [He]; · iexact He
          isplitl [Hf]; · iexact Hf
          isplitl [Hg8]; · iexact Hg8
          isplitl [Hh]; · iexact Hh
          unfold owns; iexists _; isplitr
          swap; · iexact HS0
          ipureintro; exact View.read_writes_of_cover _ _ _ _ _ (scover1_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the scoped rest back: the accumulator's contents are forgotten. -/
theorem hout1 (c : Dev nD) : (dat1 V c).Φ (Fin.last cfg1.N) ⊢ Pipeline.ΦA spec1 c := by
  have hN : cfg1.N = 128 := N_1
  rw [show (dat1 V c).Φ (Fin.last cfg1.N) = PhiS V c (Fin.last cfg1.N).val (Nat.le_of_lt_succ (Fin.last cfg1.N).isLt) from rfl,
    PhiS_pos V c _ _ (by rw [Fin.val_last]; omega), PhiA1_eq]
  iintro ⟨⟨Ha, Hb, Hc, Hd, He, Hf, Hg8, Hh, HS0⟩, Hg⟩
  isplitl [Ha Hb Hc Hd He Hf Hg8 Hh HS0]
  ·
    isplitl [Ha]; · iexact Ha
    isplitl [Hb]; · iexact Hb
    isplitl [Hc]; · iexact Hc
    isplitl [Hd]; · iexact Hd
    isplitl [He]; · iexact He
    isplitl [Hf]; · iexact Hf
    isplitl [Hg8]; · iexact Hg8
    isplitl [Hh]; · iexact Hh
    iexists _; iexact HS0
  iexact Hg

end Cert.Kernel.Fr

end
-- ==== Proof.BitsWholeRun.lean ====
/-
  The whole program's run: two stretches of host operations (the bias vector's softplus, then bias = mean +
  softplus(spread) · noise and its reshape to a row), the weight-building region, the matmul region.
  The contents of every unscoped buffer at each boundary are named: the launch memory, then each host stretch
  applied, then each region's arrays at what its write-backs leave and every other buffer as entered.
  Each region is a record over the thread state "every unscoped buffer at the boundary's contents, the generator
  register at some state, nothing owed"; the first region's invariant is the untouched scoped rest, the second's
  carries the accumulator. The run ends with EVERY unscoped buffer at the last boundary's contents; the argument
  arrays read back through the boundaries to the launch memory. Generic in the float instance. (This copy is over the word-level program's printed text.)
-/
import proofs.«160198_j24034636989081_2_alg».proof.Proof.Gen.Kernel.Launch
import proofs.«160198_j24034636989081_2_alg».proof.Proof.Gen.Kernel.Skeleton
import proofs.«160198_j24034636989081_2_alg».proof.Proof.Gen.Kernel.Points
import proofs.«160198_j24034636989081_2_alg».proof.Proof.Gen.Kernel.Regions
import proofs.«160198_j24034636989081_2_alg».proof.Proof.BitsWeightRegion
import proofs.«160198_j24034636989081_2_alg».proof.Proof.BitsMatmulRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch, after the first host stretch, after the second (the first region's entry). -/
abbrev W0 : Dev nD → Valuation τ sig (Elt F) := fun c => Gen.V0 m c
abbrev W1 : Dev nD → Valuation τ sig (Elt F) := fun c => Gen.V1 m c
abbrev W2 : Dev nD → Valuation τ sig (Elt F) := fun c => Gen.V2 m c
/-- The same read at the TensorCore's references: what the first region's proof data take. -/
abbrev V2 : (c : Dev nD) → (b : Ref sig .tc) → Buf (Elt F) ((c : Thread nD τ).loc b) := fun c b => W2 m c b
/-- At the first region's exit: its arrays at what the pipeline leaves, every other buffer as entered. -/
def W3 (c : Dev nD) : Valuation τ sig (Elt F) :=
  Pipeline.withArrays spec0 c (W2 m c) fun w => (dat0 (V2 m) c).arrAt w cfg0.N
theorem W3_arr (c : Dev nD) (w : Fin cfg0.W) :
    W3 m c (Proc.devRef .tc (Pipeline.arrRef spec0 w)) = (dat0 (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
abbrev V3 : (c : Dev nD) → (b : Ref sig .tc) → Buf (Elt F) ((c : Thread nD τ).loc b) := fun c b => W3 m c b
theorem hF0 (c : Dev nD) (w : Fin cfg0.W) : (dat0 (V2 m) c).arrAt w cfg0.N = V3 m c (Pipeline.arrRef spec0 w) :=
  (W3_arr m c w).symm
theorem hrest0 (c : Dev nD) : ∀ b, b ∉ Finset.univ.image (Pipeline.arrRef spec0) → V3 m c b = V2 m c b :=
  fun b hb => W3_of_ne m c b fun w e => hb (Finset.mem_image.mpr ⟨w, Finset.mem_univ _, e⟩)

/-- At the second region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ### The arguments end as launched: no host operation writes one, and a region reads it through an input window
    or bypasses it -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := (W4_arr m c 0).trans (((dat1 (V3 m) c).arrAt_in 0 rfl _).trans (A_eq1 (V3 m) c 0))
    _ = W2 m c (Proc.devRef .tc main_arg0) := W3_of_ne m c main_arg0 (by decide)
    _ = W1 m c (Proc.devRef .tc main_arg0) := Gen.V2_of m c main_arg0 (by decide)
    _ = W0 m c (Proc.devRef .tc main_arg0) := Gen.V1_of m c main_arg0 (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := (W3_arr m c 0).trans (((dat0 (V2 m) c).arrAt_in 0 rfl _).trans (A_eq0 (V2 m) c 0))
    _ = W1 m c (Proc.devRef .tc main_arg1) := Gen.V2_of m c main_arg1 (by decide)
    _ = W0 m c (Proc.devRef .tc main_arg1) := Gen.V1_of m c main_arg1 (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := (W3_arr m c 1).trans (((dat0 (V2 m) c).arrAt_in 1 rfl _).trans (A_eq0 (V2 m) c 1))
    _ = W1 m c (Proc.devRef .tc main_arg2) := Gen.V2_of m c main_arg2 (by decide)
    _ = W0 m c (Proc.devRef .tc main_arg2) := Gen.V1_of m c main_arg2 (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of_ne m c main_arg3 (by decide)
    _ = W1 m c (Proc.devRef .tc main_arg3) := Gen.V2_of m c main_arg3 (by decide)
    _ = W0 m c (Proc.devRef .tc main_arg3) := Gen.V1_of m c main_arg3 (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := Gen.V2_of m c main_arg4 (by decide)
    _ = W0 m c (Proc.devRef .tc main_arg4) := Gen.V1_of m c main_arg4 (by decide)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := (W3_arr m c 2).trans (((dat0 (V2 m) c).arrAt_in 2 rfl _).trans (A_eq0 (V2 m) c 2))
    _ = W1 m c (Proc.devRef .tc main_arg5) := Gen.V2_of m c main_arg5 (by decide)
    _ = W0 m c (Proc.devRef .tc main_arg5) := Gen.V1_of m c main_arg5 (by decide)
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := W3_of_ne m c main_arg6 (by decide)
    _ = W1 m c (Proc.devRef .tc main_arg6) := Gen.V2_of m c main_arg6 (by decide)
    _ = W0 m c (Proc.devRef .tc main_arg6) := Gen.V1_of m c main_arg6 (by decide)
    _ = m ((c : Thread nD τ).loc main_arg6) := rfl

/-- The result array ends at what the matmul region's write-backs leave in it. -/
theorem W4_main_v5 (c : Dev nD) : W4 m c (Proc.devRef .tc main_v5) = (dat1 (V3 m) c).arrAt 3 cfg1.N :=
  W4_arr m c 3

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (V2 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The weight-building region: entered from every unscoped buffer at `W2`, left at `W3`. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (V2 m c) (V3 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matmul region: entered from `W3`, left at `W4`; its invariant carries the accumulator between points and
    forgets it at the exit. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V3 m) c).Φ 0 from rfl]
    iintro ⟨Hp, -, Hr⟩
    iapply (hin1 (V3 m) c)
    unfold Pipeline.ΦA
    isplitl [Hr]; · iexact Hr
    iexact Hp
  hout c := by
    rw [Pipeline.ownSems0_none, show (pdats m 1 c).Φ (Fin.last _) = (dat1 (V3 m) c).Φ (Fin.last cfg1.N) from rfl]
    have h2 : (Pipeline.ΦA spec1 c : sProp 𝕄) ⊢ iprop((∃ r, prngReg c r) ∗ emp ∗ Pipeline.scopedRest spec1 c) := by
      unfold Pipeline.ΦA
      iintro ⟨Hr, Hp⟩
      isplitl [Hp]; · iexact Hp
      isplitr; · iempintro
      iexact Hr
    exact (hout1 (V3 m) c).trans h2
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) Gen.adm (pdats m) () defs₀ 𝒱₀ L lv) :=
  [ .host (hseg hostOps0 hostOps0_sub Gen.hostOps0_fresh (W0 m)),
    .host (hseg hostOps0_1 hostOps0_1_sub Gen.hostOps0_1_fresh (W1 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, and every final state has every unscoped buffer at the last boundary's contents `W4`. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W4 m c (Proc.devRef .tc b)) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c b hb => h c _ (mem_uc b hb))

end Cert.Kernel.Fr

end
-- ==== Proof.MatmulPieces.lean ====
/-
  The matmul region's three cases read back as values. At a first block the accumulator ends at
  (zero block) + x_block · w_block; at a middle block at (what the point before left) + x_block · w_block; at a
  last block the same, and the output tile at that accumulator plus the bias row. Each is the payload of the one
  store that covers the buffer, its loads reading whole buffers. Generic in the float instance.
-/
import proofs.«160198_j24034636989081_2_alg».proof.Proof.Gen.KernelIdeal.Launch
import proofs.«160198_j24034636989081_2_alg».proof.Proof.Gen.KernelIdeal.Skeleton
import proofs.«160198_j24034636989081_2_alg».proof.Proof.Gen.KernelIdeal.Points
import proofs.«160198_j24034636989081_2_alg».proof.Proof.MatmulRegion
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- A middle block: the accumulator plus the block product. -/
theorem sout_B (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S512x2048 .bf16) (x2 : Vec F S1x2048 .f32) (xs0 : Vec F S1024x2048 .f32) :
    sout1_B_0 c i arg3 harg3 arg4 harg4 arg5 harg5 arg6 harg6 arg7 harg7 hc0 hc1 x0 x1 x2 xs0 = k1_pay2 x0 xs0 x1 := by
  unfold sout1_B_0
  rw [View.read_writes_eq_canon _ _ _ (scover1_B_0 c i arg3 harg3 arg4 harg4 arg5 harg5 arg6 harg6 arg7 harg7 hc0 hc1 x0 x1 x2 xs0)]
  unfold kernelRun1_B
  dsimp only
  rw [View.canon_unit_zero hz]
  simp only [View.readAt_eq_ld, harg3.read_unread, harg4.read_unread, harg5.read_unread, harg7.read_unread, View.ld_unit_zero (S := S1024x512) hz, View.ld_unit_zero (S := S512x2048) hz, View.ld_unit_zero (S := S1x2048) hz, View.ld_unit_zero (S := S1024x2048) hz]

/-- A last block: the accumulator likewise, -/
theorem sout_C (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S512x2048 .bf16) (x2 : Vec F S1x2048 .f32) (xs0 : Vec F S1024x2048 .f32) :
    sout1_C_0 c i arg3 harg3 arg4 harg4 arg5 harg5 arg6 harg6 arg7 harg7 hc0 hc1 x0 x1 x2 xs0 = k1_pay2 x0 xs0 x1 := by
  unfold sout1_C_0
  rw [View.read_writes_eq_canon _ _ _ (scover1_C_0 c i arg3 harg3 arg4 harg4 arg5 harg5 arg6 harg6 arg7 harg7 hc0 hc1 x0 x1 x2 xs0)]
  unfold kernelRun1_C
  dsimp only
  sl_unfold_words
  rw [View.canon_unit_zero hz]
  simp only [View.readAt_eq_ld, harg3.read_unread, harg4.read_unread, harg5.read_unread, harg7.read_unread, View.ld_unit_zero (S := S1024x512) hz, View.ld_unit_zero (S := S512x2048) hz, View.ld_unit_zero (S := S1x2048) hz, View.ld_unit_zero (S := S1024x2048) hz]

/-- and the output tile: that accumulator plus the bias row. -/
theorem out_C (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S512x2048 .bf16) (x2 : Vec F S1x2048 .f32) (xs0 : Vec F S1024x2048 .f32) :
    out1_C_3 c i arg3 harg3 arg4 harg4 arg5 harg5 arg6 harg6 arg7 harg7 hc0 hc1 x0 x1 x2 xs0 = k1_pay3 (k1_pay2 x0 xs0 x1) x2 := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_words
  rw [View.canon_unit_zero hz, View.readCov_unit_zero (S := S1024x2048) _ hz]
  simp only [View.readAt_eq_ld, harg3.read_unread, harg4.read_unread, harg5.read_unread, harg7.read_unread, View.ld_unit_zero (S := S1024x512) hz, View.ld_unit_zero (S := S512x2048) hz, View.ld_unit_zero (S := S1x2048) hz, View.ld_unit_zero (S := S1024x2048) hz]

/-- A first block: the zero block is stored, read back, and the block product added to it. -/
theorem sout_A (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S512x2048 .bf16) (x2 : Vec F S1x2048 .f32) :
    sout1_A_0 c i arg3 harg3 arg4 harg4 arg5 harg5 arg6 harg6 arg7 harg7 hc0 hc1 x0 x1 x2 = k1_pay2 x0 (k1_pay1 (F := F)) x1 := by
  unfold sout1_A_0
  rw [View.read_writes_eq_canon _ _ _ (scover1_A_0 c i arg3 harg3 arg4 harg4 arg5 harg5 arg6 harg6 arg7 harg7 hc0 hc1 x0 x1 x2)]
  unfold kernelRun1_A
  dsimp only
  sl_unfold_words
  rw [View.canon_cons_unit_zero (S := S1024x2048) hz, View.readCov_unit_zero (S := S1024x2048) _ hz]
  simp only [View.readAt_eq_ld, harg3.read_unread, harg4.read_unread, harg5.read_unread, harg7.read_unread, View.ld_unit_zero (S := S1024x512) hz, View.ld_unit_zero (S := S512x2048) hz, View.ld_unit_zero (S := S1x2048) hz, View.ld_unit_zero (S := S1024x2048) hz]

end Cert.KernelIdeal.Fr

end
-- ==== Proof.AccFold.lean ====
/-
  The accumulator after each point of the matmul region, as the fold of its run along the contracted axis: at a
  first block it is reset to (zero block) + x_block · w_block, at every other block it is what the point before left
  plus that block's product; so at ANY point it is the fold from the first block of its run of eight. At a last
  block the output tile is that accumulator plus the bias row. By induction on the position inside a run, never
  on the grid's 128 points. Generic in the float instance.
-/
import proofs.«160198_j24034636989081_2_alg».proof.Proof.Gen.KernelIdeal.Launch
import proofs.«160198_j24034636989081_2_alg».proof.Proof.Gen.KernelIdeal.Skeleton
import proofs.«160198_j24034636989081_2_alg».proof.Proof.Gen.KernelIdeal.Points
import proofs.«160198_j24034636989081_2_alg».proof.Proof.MatmulPieces
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator a first block at point `n` leaves: the zero block plus the point's block product. -/
def resetAt (c : Dev nD) : (n : ℕ) → n < cfg1.N → Vec F S1024x2048 .f32 :=
  fun n h => k1_pay2 (iblk1 V c 0 ⟨n, h⟩) (k1_pay1 (F := F)) (iblk1 V c 1 ⟨n, h⟩)

/-- The accumulator any other block at point `n` leaves, from what the point before left. -/
def stepAt (c : Dev nD) : (n : ℕ) → n < cfg1.N → Vec F S1024x2048 .f32 → Vec F S1024x2048 .f32 :=
  fun n h acc => k1_pay2 (iblk1 V c 0 ⟨n, h⟩) acc (iblk1 V c 1 ⟨n, h⟩)

theorem acc_reset (c : Dev nD) (t : Fin cfg1.N) (h0 : t.val % 8 = 0) :
    (outsAt1 V c t.val t.isLt).2 = resetAt V c t.val t.isLt := by
  have h1 : ¬t.val % 8 = 7 := by omega
  have e : (outsAt1 V c t.val t.isLt).2 = sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h' => h1 ((hcond1_1 t).mp h')) (iblk1 V c 0 t) (iblk1 V c 1 t) (iblk1 V c 2 t) := by
    rw [outsAt1_A V c t h0 h1]
  exact e.trans (sout_A c (grid1.coords t) (ms1_0 t) (hs1_0 t) (ms1_1 t) (hs1_1 t) (ms1_2 t) (hs1_2 t) (ms1_3 t) (hs1_3 t) scM1_0 (Memref.isWhole_whole _) ((hcond1_0 t).mpr h0) (fun h' => h1 ((hcond1_1 t).mp h')) (iblk1 V c 0 t) (iblk1 V c 1 t) (iblk1 V c 2 t))

theorem acc_step (c : Dev nD) (t : Fin cfg1.N) (hne : ¬t.val % 8 = 0) :
    (outsAt1 V c t.val t.isLt).2 = stepAt V c t.val t.isLt (outsAt1 V c (t.val - 1) (Nat.lt_of_le_of_lt (Nat.sub_le _ _) t.isLt)).2 := by
  by_cases h1 : t.val % 8 = 7
  · have e : (outsAt1 V c t.val t.isLt).2 = sout1_C_0 c (grid1.coords t) (ms1_0 t) (hs1_0 t) (ms1_1 t) (hs1_1 t) (ms1_2 t) (hs1_2 t) (ms1_3 t) (hs1_3 t) scM1_0 (Memref.isWhole_whole _) (fun h' => hne ((hcond1_0 t).mp h')) ((hcond1_1 t).mpr h1) (iblk1 V c 0 t) (iblk1 V c 1 t) (iblk1 V c 2 t) (outsAt1 V c (t.val - 1) (Nat.lt_of_le_of_lt (Nat.sub_le _ _) t.isLt)).2 := by
      rw [outsAt1_C V c t hne h1]
    exact e.trans (sout_C c (grid1.coords t) (ms1_0 t) (hs1_0 t) (ms1_1 t) (hs1_1 t) (ms1_2 t) (hs1_2 t) (ms1_3 t) (hs1_3 t) scM1_0 (Memref.isWhole_whole _) (fun h' => hne ((hcond1_0 t).mp h')) ((hcond1_1 t).mpr h1) (iblk1 V c 0 t) (iblk1 V c 1 t) (iblk1 V c 2 t) (outsAt1 V c (t.val - 1) (Nat.lt_of_le_of_lt (Nat.sub_le _ _) t.isLt)).2)
  · have e : (outsAt1 V c t.val t.isLt).2 = sout1_B_0 c (grid1.coords t) (ms1_0 t) (hs1_0 t) (ms1_1 t) (hs1_1 t) (ms1_2 t) (hs1_2 t) (ms1_3 t) (hs1_3 t) scM1_0 (Memref.isWhole_whole _) (fun h' => hne ((hcond1_0 t).mp h')) (fun h' => h1 ((hcond1_1 t).mp h')) (iblk1 V c 0 t) (iblk1 V c 1 t) (iblk1 V c 2 t) (outsAt1 V c (t.val - 1) (Nat.lt_of_le_of_lt (Nat.sub_le _ _) t.isLt)).2 := by
      rw [outsAt1_B V c t hne h1]
    exact e.trans (sout_B c (grid1.coords t) (ms1_0 t) (hs1_0 t) (ms1_1 t) (hs1_1 t) (ms1_2 t) (hs1_2 t) (ms1_3 t) (hs1_3 t) scM1_0 (Memref.isWhole_whole _) (fun h' => hne ((hcond1_0 t).mp h')) (fun h' => h1 ((hcond1_1 t).mp h')) (iblk1 V c 0 t) (iblk1 V c 1 t) (iblk1 V c 2 t) (outsAt1 V c (t.val - 1) (Nat.lt_of_le_of_lt (Nat.sub_le _ _) t.isLt)).2)

/-- At any point the accumulator is the fold over its run of eight, from the run's first block. -/
theorem acc_fold (c : Dev nD) (t : ℕ) (ht : t < cfg1.N) (h' : 8 * (t / 8) + t % 8 < cfg1.N) :
    (outsAt1 V c t ht).2 = Pipeline.accAt (resetAt V c) (stepAt V c) (8 * (t / 8)) (t % 8) h' :=
  Pipeline.eq_accAt_of_mod (fun n h => (outsAt1 V c n h).2) 8 (resetAt V c) (stepAt V c)
    (fun n h h0 => acc_reset V c ⟨n, h⟩ h0) (fun n h hne => acc_step V c ⟨n + 1, h⟩ hne) (by decide) t ht h'

/-- At a last block the output tile is the accumulator plus the bias row. -/
theorem out_last (c : Dev nD) (t : Fin cfg1.N) (h1 : t.val % 8 = 7) :
    (outsAt1 V c t.val t.isLt).1 = k1_pay3 (outsAt1 V c t.val t.isLt).2 (iblk1 V c 2 t) := by
  have hne : ¬t.val % 8 = 0 := by omega
  have e1 : (outsAt1 V c t.val t.isLt).1 = out1_C_3 c (grid1.coords t) (ms1_0 t) (hs1_0 t) (ms1_1 t) (hs1_1 t) (ms1_2 t) (hs1_2 t) (ms1_3 t) (hs1_3 t) scM1_0 (Memref.isWhole_whole _) (fun h' => hne ((hcond1_0 t).mp h')) ((hcond1_1 t).mpr h1) (iblk1 V c 0 t) (iblk1 V c 1 t) (iblk1 V c 2 t) (outsAt1 V c (t.val - 1) (Nat.lt_of_le_of_lt (Nat.sub_le _ _) t.isLt)).2 := by
    rw [outsAt1_C V c t hne h1]
  have e2 : (outsAt1 V c t.val t.isLt).2 = sout1_C_0 c (grid1.coords t) (ms1_0 t) (hs1_0 t) (ms1_1 t) (hs1_1 t) (ms1_2 t) (hs1_2 t) (ms1_3 t) (hs1_3 t) scM1_0 (Memref.isWhole_whole _) (fun h' => hne ((hcond1_0 t).mp h')) ((hcond1_1 t).mpr h1) (iblk1 V c 0 t) (iblk1 V c 1 t) (iblk1 V c 2 t) (outsAt1 V c (t.val - 1) (Nat.lt_of_le_of_lt (Nat.sub_le _ _) t.isLt)).2 := by
    rw [outsAt1_C V c t hne h1]
  rw [e1, e2]
  exact (out_C c (grid1.coords t) (ms1_0 t) (hs1_0 t) (ms1_1 t) (hs1_1 t) (ms1_2 t) (hs1_2 t) (ms1_3 t) (hs1_3 t) scM1_0 (Memref.isWhole_whole _) (fun h' => hne ((hcond1_0 t).mp h')) ((hcond1_1 t).mpr h1) (iblk1 V c 0 t) (iblk1 V c 1 t) (iblk1 V c 2 t) (outsAt1 V c (t.val - 1) (Nat.lt_of_le_of_lt (Nat.sub_le _ _) t.isLt)).2).trans
    (congrArg (fun s => k1_pay3 s (iblk1 V c 2 t)) (sout_C c (grid1.coords t) (ms1_0 t) (hs1_0 t) (ms1_1 t) (hs1_1 t) (ms1_2 t) (hs1_2 t) (ms1_3 t) (hs1_3 t) scM1_0 (Memref.isWhole_whole _) (fun h' => hne ((hcond1_0 t).mp h')) ((hcond1_1 t).mpr h1) (iblk1 V c 0 t) (iblk1 V c 1 t) (iblk1 V c 2 t) (outsAt1 V c (t.val - 1) (Nat.lt_of_le_of_lt (Nat.sub_le _ _) t.isLt)).2).symm)

end Cert.KernelIdeal.Fr

end
-- ==== Proof.Payloads.lean ====
/- Pure lemmas about the kernel's payloads at one entry, at the extended reals: the zero block, one
   accumulation step (the scratch entry plus a 512-term partial dot product), the epilogue (the bias
   row added), one weight entry (mu + softplus(rho)·eps in the kernel's form and in the reference's), and
   the regrouping of a 4096-term sum as 8 consecutive blocks of 512 terms. -/
import proofs.«160198_j24034636989081_2_alg».proof.Proof.Gen.KernelIdeal.Skeleton
import proofs.«160198_j24034636989081_2_alg».proof.Proof.Gen.ReferenceIdeal.Read
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Idealize.ShloMosaic Idealize.ShloMosaic.ValueIdx

/-- regrouping the 4096-term sum as 8 consecutive blocks of 512 (a commutative-monoid law: no finiteness) -/
theorem sum_blocks (f : ℕ → EReal) :
    ∑ k : Fin 4096, f k.val = ∑ b ∈ Finset.range 8, ∑ kk : Fin 512, f (512 * b + kk.val) := by
  -- an index below 8·512 is 512·b + kk for exactly one pair (b, kk)
  have e : ∑ k : Fin (8 * 512), f k.val = ∑ p : Fin 8 × Fin 512, f (finProdFinEquiv p).val :=
    (Equiv.sum_comp finProdFinEquiv (fun k : Fin (8 * 512) => f k.val)).symm
  show ∑ k : Fin (8 * 512), f k.val = _
  rw [e, Fintype.sum_prod_type, ← Fin.sum_univ_eq_sum_range (fun b => ∑ kk : Fin 512, f (512 * b + kk.val)) 8]
  refine Finset.sum_congr rfl fun b _ => Finset.sum_congr rfl fun kk _ => ?_
  show f (kk.val + 512 * b.val) = f (512 * b.val + kk.val)
  rw [Nat.add_comm]

open Cert.KernelIdeal Cert.KernelIdeal.Gen in
/-- the zero block -/
theorem zero_payload (p : Fin 1024) (q : Fin 2048) : k1_pay1 (F := Ideal) (ix2 p q) = (0 : EReal) := by
  show shapeCast S1024x2048 (broadcast S1024x2048 (Scalar.ofBits (F := Ideal) .f32 0x00000000#32)) _ (ix2 p q) = 0
  rw [shapeCast_self]
  exact Ideal.ofBits_zero_f32

open Cert.KernelIdeal Cert.KernelIdeal.Gen in
/-- the epilogue at an entry: the accumulated entry plus the bias row's entry -/
theorem bias_payload (a : Vec Ideal S1024x2048 .f32) (b : Vec Ideal S1x2048 .f32) (p : Fin 1024) (q : Fin 2048) :
    k1_pay3 (F := Ideal) a b (ix2 p q) = a (ix2 p q) + b (ix2 (0 : Fin 1) q) := by
  show a (ix2 p q) + broadcastTo S1024x2048 (shapeCast S1x2048 b _) _ (ix2 p q) = _
  rw [shapeCast_self, broadcastTo_1b_ab_apply]

open Cert.KernelIdeal Cert.KernelIdeal.Gen in
/-- the product's left operand index at output index j and contraction index c: row of j … -/
theorem lhs_row (j : S1024x2048.Idx) (c : dot_S1024x512_S512x2048_S1024x2048_1_0_0_1_n_n.contr.Idx) :
    (dot_S1024x512_S512x2048_S1024x2048_1_0_0_1_n_n.lhsIdx j c 0).val = (j 0).val := by
  unfold DotDims.lhsIdx
  rw [dif_neg (show ¬(0 : Fin S1024x512.rank) ∈ dot_S1024x512_S512x2048_S1024x2048_1_0_0_1_n_n.lhsBatch by decide),
    dif_pos (show (0 : Fin S1024x512.rank) ∈ dot_S1024x512_S512x2048_S1024x2048_1_0_0_1_n_n.lhsNonContracting by decide)]
  rfl
open Cert.KernelIdeal Cert.KernelIdeal.Gen in
/-- … and the contracted coordinate -/
theorem lhs_col (j : S1024x2048.Idx) (c : dot_S1024x512_S512x2048_S1024x2048_1_0_0_1_n_n.contr.Idx) :
    (dot_S1024x512_S512x2048_S1024x2048_1_0_0_1_n_n.lhsIdx j c 1).val = (c ⟨0, by decide⟩).val :=
  dot_S1024x512_S512x2048_S1024x2048_1_0_0_1_n_n.lhsIdx_val_of_single rfl j c
open Cert.KernelIdeal Cert.KernelIdeal.Gen in
/-- the right operand index: the contracted coordinate … -/
theorem rhs_row (j : S1024x2048.Idx) (c : dot_S1024x512_S512x2048_S1024x2048_1_0_0_1_n_n.contr.Idx) :
    (dot_S1024x512_S512x2048_S1024x2048_1_0_0_1_n_n.rhsIdx j c 0).val = (c ⟨0, by decide⟩).val :=
  dot_S1024x512_S512x2048_S1024x2048_1_0_0_1_n_n.rhsIdx_val_of_single rfl j c
open Cert.KernelIdeal Cert.KernelIdeal.Gen in
/-- … and the column of j -/
theorem rhs_col (j : S1024x2048.Idx) (c : dot_S1024x512_S512x2048_S1024x2048_1_0_0_1_n_n.contr.Idx) :
    (dot_S1024x512_S512x2048_S1024x2048_1_0_0_1_n_n.rhsIdx j c 1).val = (j 1).val := by
  unfold DotDims.rhsIdx
  rw [dif_neg (show ¬(1 : Fin S512x2048.rank) ∈ dot_S1024x512_S512x2048_S1024x2048_1_0_0_1_n_n.rhsBatch by decide),
    dif_pos (show (1 : Fin S512x2048.rank) ∈ dot_S1024x512_S512x2048_S1024x2048_1_0_0_1_n_n.rhsNonContracting by decide)]
  rfl

open Cert.KernelIdeal Cert.KernelIdeal.Gen in
/-- one accumulation step at an entry: the scratch entry plus the 512-term partial dot product -/
theorem acc_payload (x : Vec Ideal S1024x512 .f32) (s : Vec Ideal S1024x2048 .f32) (w : Vec Ideal S512x2048 .bf16) (p : Fin 1024) (q : Fin 2048) :
    k1_pay2 (F := Ideal) x s w (ix2 p q) = s (ix2 p q) + ∑ k : Fin 512, x (ix2 p k) * w (ix2 k q) := by
  show shapeCast S1024x2048 (addf (F := Ideal) s (matmul (F := Ideal) dot_S1024x512_S512x2048_S1024x2048_1_0_0_1_n_n none
      (truncf (F := Ideal) .bf16 x bitsLt_bf16_f32) (shapeCast S512x2048 w shapeCasts_S512x2048_S512x2048)
      (constant (F := Ideal) S1024x2048 .f32 0x00000000#32))) shapeCasts_S1024x2048_S1024x2048 (ix2 p q) = _
  -- the two shape casts are between equal shapes: the identity
  rw [shapeCast_self, shapeCast_self]
  show s (ix2 p q) + FloatOps.matmul (F := Ideal) dot_S1024x512_S512x2048_S1024x2048_1_0_0_1_n_n none
      (truncf (F := Ideal) .bf16 x bitsLt_bf16_f32) w
      (constant (F := Ideal) S1024x2048 .f32 0x00000000#32) (ix2 p q) = _
  refine congrArg (s (ix2 p q) + ·) ?_
  -- the product into the zero block is the sum over the contraction index, which has one axis of extent 512
  rw [Ideal.matmul_constant_zero_apply,
    ← Equiv.sum_comp (contrEquiv1 dot_S1024x512_S512x2048_S1024x2048_1_0_0_1_n_n 512 rfl rfl).symm]
  refine Finset.sum_congr rfl fun k _ => ?_
  have hk := contrEquiv1_symm_val dot_S1024x512_S512x2048_S1024x2048_1_0_0_1_n_n 512 rfl rfl k
  -- the left operand is read at (p, k) …
  have el : dot_S1024x512_S512x2048_S1024x2048_1_0_0_1_n_n.lhsIdx (ix2 p q)
      ((contrEquiv1 dot_S1024x512_S512x2048_S1024x2048_1_0_0_1_n_n 512 rfl rfl).symm k) = ix2 p k :=
    funext fun a => Fin.ext (by
      match a with
      | ⟨0, _⟩ => exact lhs_row _ _
      | ⟨1, _⟩ => exact (lhs_col _ _).trans hk)
  -- … and the right operand at (k, q)
  have er : dot_S1024x512_S512x2048_S1024x2048_1_0_0_1_n_n.rhsIdx (ix2 p q)
      ((contrEquiv1 dot_S1024x512_S512x2048_S1024x2048_1_0_0_1_n_n 512 rfl rfl).symm k) = ix2 k q :=
    funext fun a => Fin.ext (by
      match a with
      | ⟨0, _⟩ => exact (rhs_row _ _).trans hk
      | ⟨1, _⟩ => exact rhs_col _ _)
  rw [el, er]
  rfl

/-- the two spellings of one weight entry m + softplus(r)·e agree on the extended reals: 0 − a is −a, and a value differs from itself under the ordered predicate exactly when it does under the unordered one (never) -/
theorem softplus_forms (m r e z : EReal) (hz : z = 0) :
    m + Scalar.select (Ideal.cmp .one (r - z) (r - z)) (r + z)
          (max r z + Ideal.log1p (Ideal.exp (z - max (r - z) (-(r - z))))) * e
      = m + Scalar.select (Ideal.cmp .une (r - z) (r - z)) (r + z)
          (max r z + Ideal.log1p (Ideal.exp (-(max (r - z) (-(r - z)))))) * e := by
  subst hz
  rw [zero_sub]
  rfl

open Cert.KernelIdeal Cert.KernelIdeal.Gen in
/-- one weight entry: the kernel's in-kernel softplus form (0 − |r|, ordered compare) and the reference's host form (neg |r|, unordered compare) are one extended-real function, so the stored entry is the reference's weight stage at the array index the entry comes from -/
theorem weight_payload (mu rho eps : Vec Ideal S512x2048 .f32) (p : Fin 512) (q : Fin 2048)
    (M R E : (⟨Cert.ReferenceIdeal.S4096x4096, .f32⟩ : BufTy).Contents (Elt Ideal)) (i : Cert.ReferenceIdeal.S4096x4096.Idx)
    (hm : mu (ix2 p q) = M i) (hr : rho (ix2 p q) = R i) (he : eps (ix2 p q) = E i) :
    k0_pay1 (F := Ideal) mu rho eps (ix2 p q) = Cert.ReferenceIdeal.Read.val_main_v2 (F := Ideal) M R E i := by
  rw [Cert.ReferenceIdeal.Read.val_main_v2_apply, Cert.ReferenceIdeal.Read.val_main_v1_apply,
    Cert.ReferenceIdeal.Read.val_main_v0_apply, Cert.ReferenceIdeal.Read.val_main_call0_v4_apply,
    Cert.ReferenceIdeal.Read.val_main_call0_v6_apply, Cert.ReferenceIdeal.Read.val_main_call0_v11_apply,
    Cert.ReferenceIdeal.Read.val_main_call0_v1_apply, Cert.ReferenceIdeal.Read.val_main_call0_v10_apply,
    Cert.ReferenceIdeal.Read.val_main_call0_v9_apply, Cert.ReferenceIdeal.Read.val_main_call0_v8_apply,
    Cert.ReferenceIdeal.Read.val_main_call0_v7_apply, Cert.ReferenceIdeal.Read.val_main_call0_v3_apply,
    Cert.ReferenceIdeal.Read.val_main_call0_v0_apply, Cert.ReferenceIdeal.Read.val_main_call0_v2_apply,
    Cert.ReferenceIdeal.Read.val_main_call0_v5_apply, Cert.ReferenceIdeal.Read.val_main_call0_cst_apply,
    ← hm, ← hr, ← he]
  exact softplus_forms (mu (ix2 p q)) (rho (ix2 p q)) (eps (ix2 p q)) (Ideal.ofBits .f32 0x00000000#32) Ideal.ofBits_zero_f32

end Cert.KernelIdeal.Pay

end
-- ==== Proof.OutSpec.lean ====
/-
  The specification of the whole computation at the extended reals, as one function of three arrays — the
  activations X [8192, 4096], the weights Wt [4096, 4096], the bias row Bv [1, 4096]:

      out (r, s) = (∑ k < 4096, X (r, k) · Wt (k, s)) + Bv (0, s),

  with the arrays read at natural-number coordinates (so that sums over blocks re-index by arithmetic alone).
-/
import proofs.«160198_j24034636989081_2_alg».proof.KernelIdeal
import Idealize.ShloMosaic.Lib.ValueIdx

noncomputable section

namespace Cert.KernelIdeal.Val

open Cert.KernelIdeal Idealize.ShloMosaic Idealize.ShloMosaic.ValueIdx

/-- A rank-2 array read at natural coordinates (zero outside the array: never consulted). -/
def rd2 {a b : ℕ} (A : (⟨2, ![a, b]⟩ : Shape).Idx → EReal) (r s : ℕ) : EReal :=
  if h : r < a ∧ s < b then A (ix2 ⟨r, h.1⟩ ⟨s, h.2⟩) else 0

theorem rd2_of_lt {a b : ℕ} (A : (⟨2, ![a, b]⟩ : Shape).Idx → EReal) (r s : ℕ) (hr : r < a) (hs : s < b) :
    rd2 A r s = A (ix2 ⟨r, hr⟩ ⟨s, hs⟩) := dif_pos ⟨hr, hs⟩

/-- The product of the activations with the weights, plus the bias row, entry by entry. -/
def outSpec (X : S8192x4096.Idx → EReal) (Wt : S4096x4096.Idx → EReal) (Bv : S1x4096.Idx → EReal) : S8192x4096.Idx → EReal :=
  fun i => (∑ k : Fin 4096, rd2 X (i 0).val k.val * rd2 Wt k.val (i 1).val) + rd2 Bv 0 (i 1).val

end Cert.KernelIdeal.Val

end
-- ==== Proof.MatmulValue.lean ====
/-
  The result array after the matmul region, as ONE function of the region's three input arrays (the activations X,
  the weights Wt, the bias row Bv), at the extended reals:

      out (r, s) = (∑ k < 4096, X (r, k) · Wt (k, s)) + Bv (0, s).

  A tile's last block writes back (accumulator) + (bias row); the accumulator is the fold of its run of eight
  blocks, which at an entry is 0 + the sum over the eight blocks of the 512-term partial products; a block of a
  window read at an entry is the window's array read at (block index × block size + the entry's coordinate); and the
  4096-term sum regroups as eight consecutive 512-term sums (addition of extended reals is commutative and
  associative: no finiteness is used). The 64 tiles' last blocks cover the array.
-/
import proofs.«160198_j24034636989081_2_alg».proof.Proof.AccFold
import proofs.«160198_j24034636989081_2_alg».proof.Proof.Payloads
import proofs.«160198_j24034636989081_2_alg».proof.Proof.OutSpec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-! ## The index maps over the grid -/

/-- The grid is 8 × 2 × 8 in row-major order: point t is row tile t / 16, column tile (t / 8) % 2, block t % 8 of the
    contracted axis; each window's block index in those terms, decided over the 128 points. -/
theorem idx1 : ∀ t : Fin cfg1.N,
    win1_0.index t (0 : Fin 2) = t.val / 16 ∧ win1_0.index t (1 : Fin 2) = t.val % 8
    ∧ win1_1.index t (0 : Fin 2) = t.val % 8 ∧ win1_1.index t (1 : Fin 2) = (t.val / 8) % 2
    ∧ win1_2.index t (0 : Fin 2) = 0 ∧ win1_2.index t (1 : Fin 2) = (t.val / 8) % 2
    ∧ win1_3.index t (0 : Fin 2) = t.val / 16 ∧ win1_3.index t (1 : Fin 2) = (t.val / 8) % 2 :=
  (by decide +kernel : ∀ t : Fin grid1.N, _)

/-! ## A window's block read at an entry -/

theorem xblk_apply (c : Dev nD) (n : ℕ) (h : n < cfg1.N) (p : Fin 1024) (k : Fin 512) :
    iblk1 V c 0 ⟨n, h⟩ (ix2 p k) = rd2 (V c main_arg0) (1024 * (n / 16) + p.val) (512 * (n % 8) + k.val) := by
  have hN : n < 128 := lt_of_lt_of_eq h N_1
  obtain ⟨e0, e1, -⟩ := idx1 ⟨n, h⟩
  rw [rd2_of_lt _ _ _ (by omega) (by omega)]
  show V c main_arg0 (((cfg1.win 0).blk ⟨n, h⟩).view.emb (ix2 p k)) = _
  refine congrArg _ ?_
  funext a; apply Fin.ext
  match a with
  | ⟨0, _⟩ => show win1_0.index ⟨n, h⟩ (0 : Fin 2) * 1024 + 1 * p.val = 1024 * (n / 16) + p.val; dsimp only at e0; omega
  | ⟨1, _⟩ => show win1_0.index ⟨n, h⟩ (1 : Fin 2) * 512 + 1 * k.val = 512 * (n % 8) + k.val; dsimp only at e1; omega

theorem wblk_apply (c : Dev nD) (n : ℕ) (h : n < cfg1.N) (k : Fin 512) (q : Fin 2048) :
    iblk1 V c 1 ⟨n, h⟩ (ix2 k q) = rd2 (V c main_v4) (512 * (n % 8) + k.val) (2048 * ((n / 8) % 2) + q.val) := by
  have hN : n < 128 := lt_of_lt_of_eq h N_1
  obtain ⟨-, -, e0, e1, -⟩ := idx1 ⟨n, h⟩
  rw [rd2_of_lt _ _ _ (by omega) (by omega)]
  show V c main_v4 (((cfg1.win 1).blk ⟨n, h⟩).view.emb (ix2 k q)) = _
  refine congrArg _ ?_
  funext a; apply Fin.ext
  match a with
  | ⟨0, _⟩ => show win1_1.index ⟨n, h⟩ (0 : Fin 2) * 512 + 1 * k.val = 512 * (n % 8) + k.val; dsimp only at e0; omega
  | ⟨1, _⟩ => show win1_1.index ⟨n, h⟩ (1 : Fin 2) * 2048 + 1 * q.val = 2048 * ((n / 8) % 2) + q.val; dsimp only at e1; omega

theorem bblk_apply (c : Dev nD) (t : Fin cfg1.N) (q : Fin 2048) :
    iblk1 V c 2 t (ix2 (0 : Fin 1) q) = rd2 (V c main_v3) 0 (2048 * ((t.val / 8) % 2) + q.val) := by
  have hN : t.val < 128 := lt_of_lt_of_eq t.isLt N_1
  obtain ⟨-, -, -, -, e0, e1, -⟩ := idx1 t
  rw [rd2_of_lt _ _ _ (by omega) (by omega)]
  show V c main_v3 (((cfg1.win 2).blk t).view.emb (ix2 (0 : Fin 1) q)) = _
  refine congrArg _ ?_
  funext a; apply Fin.ext
  match a with
  | ⟨0, _⟩ => show win1_2.index t (0 : Fin 2) * 1 + 1 * 0 = 0; omega
  | ⟨1, _⟩ => show win1_2.index t (1 : Fin 2) * 2048 + 1 * q.val = 2048 * ((t.val / 8) % 2) + q.val; omega

/-! ## The accumulator at an entry -/

/-- Point `n`'s addend at an entry: the 512-term partial product of its blocks, in the arrays' coordinates. -/
def addend (c : Dev nD) (n : ℕ) (i : S1024x2048.Idx) : EReal :=
  ∑ k : Fin 512, rd2 (V c main_arg0) (1024 * (n / 16) + (i 0).val) (512 * (n % 8) + k.val)
    * rd2 (V c main_v4) (512 * (n % 8) + k.val) (2048 * ((n / 8) % 2) + (i 1).val)

theorem reset_apply (c : Dev nD) (n : ℕ) (h : n < cfg1.N) (i : S1024x2048.Idx) :
    resetAt V c n h i = 0 + addend V c n i := by
  obtain ⟨p, q, rfl⟩ : ∃ (p : Fin 1024) (q : Fin 2048), i = ix2 p q := ⟨i 0, i 1, eq_ix2 i⟩
  unfold resetAt addend
  refine (Pay.acc_payload _ _ _ p q).trans ?_
  rw [Pay.zero_payload]
  refine congrArg (0 + ·) (Finset.sum_congr rfl fun k _ => ?_)
  rw [xblk_apply V c n h p k, wblk_apply V c n h k q]

theorem step_apply (c : Dev nD) (n : ℕ) (h : n < cfg1.N) (acc : Vec Ideal S1024x2048 .f32) (i : S1024x2048.Idx) :
    stepAt V c n h acc i = acc i + addend V c n i := by
  obtain ⟨p, q, rfl⟩ : ∃ (p : Fin 1024) (q : Fin 2048), i = ix2 p q := ⟨i 0, i 1, eq_ix2 i⟩
  unfold stepAt addend
  refine (Pay.acc_payload _ _ _ p q).trans ?_
  refine congrArg (acc (ix2 p q) + ·) (Finset.sum_congr rfl fun k _ => ?_)
  rw [xblk_apply V c n h p k, wblk_apply V c n h k q]

/-- After a tile's last block the accumulator holds, at an entry, 0 plus the eight blocks' addends. -/
theorem acc_last_apply (c : Dev nD) (t : Fin cfg1.N) (h7 : t.val % 8 = 7) (i : S1024x2048.Idx) :
    (outsAt1 V c t.val t.isLt).2 i = 0 + ∑ s ∈ Finset.range 8, addend V c (8 * (t.val / 8) + s) i := by
  have hN : t.val < 128 := lt_of_lt_of_eq t.isLt N_1
  have h' : 8 * (t.val / 8) + t.val % 8 < cfg1.N := by rw [Nat.div_add_mod]; exact t.isLt
  rw [acc_fold V c t.val t.isLt h']
  have := Pipeline.accAt_add_apply (β := EReal) (resetAt V c) (stepAt V c) (fun _ => 0) (addend V c) (8 * (t.val / 8)) 7
    (fun h i => reset_apply V c _ h i) (fun n h acc i _ _ => step_apply V c n h acc i) (t.val % 8) (by omega) h' i
  rw [this, h7]

/-! ## What a last block writes back -/

theorem out_flushed_eq (c : Dev nD) (t : Fin cfg1.N) (hf : (cfg1.win 3).flush t = true) :
    (dat1 V c).flushed 3 t = ((cfg1.win 3).blk t).view.read (Elt Ideal) (outSpec (V c main_arg0) (V c main_v4) (V c main_v3)) := by
  have h7 : t.val % 8 = 7 := (flush1_3 t).mp hf
  have hN : t.val < 128 := lt_of_lt_of_eq t.isLt N_1
  obtain ⟨-, -, -, -, -, -, e0, e1⟩ := idx1 t
  show (cfg1.win 3).cut (grid1.coords t) ((dat1 V c).after 3 t) = _
  rw [after1_3, out_last V c t h7]
  funext j
  obtain ⟨p, q, rfl⟩ : ∃ (p : Fin 1024) (q : Fin 2048), j = ix2 p q := ⟨j 0, j 1, eq_ix2 j⟩
  show k1_pay3 (F := Ideal) (outsAt1 V c t.val t.isLt).2 (iblk1 V c 2 t) (ix2 p q)
      = outSpec (V c main_arg0) (V c main_v4) (V c main_v3) (((cfg1.win 3).blk t).view.emb (ix2 p q))
  refine (Pay.bias_payload _ _ p q).trans ?_
  rw [acc_last_apply V c t h7, bblk_apply V c t q, zero_add]
  have r0 : ((((cfg1.win 3).blk t).view.emb (ix2 p q)) 0).val = 1024 * (t.val / 16) + p.val := by
    show win1_3.index t (0 : Fin 2) * 1024 + 1 * p.val = _; omega
  have r1 : ((((cfg1.win 3).blk t).view.emb (ix2 p q)) 1).val = 2048 * ((t.val / 8) % 2) + q.val := by
    show win1_3.index t (1 : Fin 2) * 2048 + 1 * q.val = _; omega
  unfold outSpec
  rw [r0, r1]
  refine congrArg (· + _) ?_
  rw [Pay.sum_blocks (fun k => rd2 (V c main_arg0) (1024 * (t.val / 16) + p.val) k * rd2 (V c main_v4) k (2048 * ((t.val / 8) % 2) + q.val))]
  refine Finset.sum_congr rfl fun s hs => ?_
  have hs8 : s < 8 := Finset.mem_range.mp hs
  unfold addend
  refine Finset.sum_congr rfl fun k _ => ?_
  have a0 : (8 * (t.val / 8) + s) / 16 = t.val / 16 := by omega
  have a1 : (8 * (t.val / 8) + s) % 8 = s := by omega
  have a2 : ((8 * (t.val / 8) + s) / 8) % 2 = (t.val / 8) % 2 := by omega
  rw [a0, a1, a2]

/-! ## The last blocks cover the array -/

theorem out_mem_blk (t : Fin cfg1.N) (i : S8192x4096.Idx) :
    i ∈ ((cfg1.win 3).blk t).view.set ↔ ∀ a : Fin 2, win1_3.index t a * S1024x2048.size a ≤ (i a).val ∧ (i a).val < win1_3.index t a * S1024x2048.size a + S1024x2048.size a := by
  show i ∈ ((View.whole main_v5).slice (win1_3.rect t)).set ↔ _
  rw [View.set_slice_whole, Rect.mem_set_unit]
  exact Iff.rfl

theorem out_cover (i : S8192x4096.Idx) : ∃ t : Fin cfg1.N, (cfg1.win 3).flush t = true ∧ i ∈ ((cfg1.win 3).blk t).view.set := by
  have hi0 : (i 0).val < 8192 := (i 0).isLt
  have hi1 : (i 1).val < 4096 := (i 1).isLt
  have hN : cfg1.N = 128 := N_1
  let t : Fin cfg1.N := ⟨16 * ((i 0).val / 1024) + 8 * ((i 1).val / 2048) + 7, by rw [hN]; omega⟩
  have ht : t.val = 16 * ((i 0).val / 1024) + 8 * ((i 1).val / 2048) + 7 := rfl
  obtain ⟨-, -, -, -, -, -, e0, e1⟩ := idx1 t
  refine ⟨t, (flush1_3 t).mpr (by omega), ?_⟩
  rw [out_mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 2048 ≤ (i 1).val ∧ (i 1).val < win1_3.index t (1 : Fin 2) * 2048 + 2048; omega

/-- THE RESULT ARRAY after the region. -/
theorem out_final (c : Dev nD) :
    (dat1 V c).arrAt 3 cfg1.N = outSpec (V c main_arg0) (V c main_v4) (V c main_v3) :=
  (dat1 V c).arrAt_eq_of_cover 3 _ (out_flushed_eq V c) out_cover

end Cert.KernelIdeal.Val

end
-- ==== Proof.WeightValue.lean ====
/- The first kernel region's output as one whole-array function: every grid point (k, n) of the 8 × 2 grid
   writes back block (k, n), 512 × 2048, of the weight array, and what it writes is, entry by entry, the
   reference's weight stage  mean + softplus(spread) · noise  at the array index the entry sits at; the 16
   blocks tile the 4096 × 4096 array, so after the region the array is that stage. -/
import proofs.«160198_j24034636989081_2_alg».proof.Proof.WeightRegion
import proofs.«160198_j24034636989081_2_alg».proof.Proof.Payloads
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- the body's one rectangle starts at offset zero on both axes -/
theorem zero_offsets : (![0, 0] : Fin 2 → Nat) = fun _ => 0 := funext fun a => by fin_cases a <;> rfl

/-- the weight array as one function of the three argument arrays, index by index -/
abbrev weights (c : Dev nD) : S4096x4096.Idx → EReal :=
  Cert.ReferenceIdeal.Read.val_main_v2 (F := Ideal) (V c main_arg1) (V c main_arg2) (V c main_arg5)

/-- the four windows have the same block index at every grid point, and it stays inside 8 × 2 (decided over the 16 points) -/
theorem index_facts : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = win0_3.index t (1 : Fin 2)
    ∧ win0_2.index t (0 : Fin 2) = win0_3.index t (0 : Fin 2) ∧ win0_2.index t (1 : Fin 2) = win0_3.index t (1 : Fin 2)
    ∧ win0_3.index t (0 : Fin 2) ≤ 7 ∧ win0_3.index t (1 : Fin 2) ≤ 1 :=
  (by decide +kernel : ∀ t : Fin grid0.N, _)

/-- every block (k, n) of the 8 × 2 tiling is some grid point's (decided) -/
theorem index_onto : ∀ (k : Fin 8) (n : Fin 2), ∃ t : Fin cfg0.N, win0_3.index t = ![k.val, n.val] :=
  (by decide +kernel : ∀ (k : Fin 8) (n : Fin 2), ∃ t : Fin grid0.N, win0_3.index t = ![k.val, n.val])

/-- an entry (p, q) of the block at a point sits in its array at (512·k + p, 2048·n + q), (k, n) the block index;
    the mean's window and the weights' window have the same block index, so the same array index -/
theorem emb_mean (t : Fin cfg0.N) (p : Fin 512) (q : Fin 2048) :
    (((cfg0.win 0).blk t).view.emb (ix2 p q) : S4096x4096.Idx) = ((cfg0.win 3).blk t).view.emb (ix2 p q) := by
  obtain ⟨e00, e01, e10, e11, e20, e21, -, -⟩ := index_facts t
  funext a; apply Fin.ext
  match a with
  | ⟨0, _⟩ => show win0_0.index t (0 : Fin 2) * 512 + 1 * p.val = win0_3.index t (0 : Fin 2) * 512 + 1 * p.val; omega
  | ⟨1, _⟩ => show win0_0.index t (1 : Fin 2) * 2048 + 1 * q.val = win0_3.index t (1 : Fin 2) * 2048 + 1 * q.val; omega

/-- the same for the spread parameter's window … -/
theorem emb_spread (t : Fin cfg0.N) (p : Fin 512) (q : Fin 2048) :
    (((cfg0.win 1).blk t).view.emb (ix2 p q) : S4096x4096.Idx) = ((cfg0.win 3).blk t).view.emb (ix2 p q) := by
  obtain ⟨e00, e01, e10, e11, e20, e21, -, -⟩ := index_facts t
  funext a; apply Fin.ext
  match a with
  | ⟨0, _⟩ => show win0_1.index t (0 : Fin 2) * 512 + 1 * p.val = win0_3.index t (0 : Fin 2) * 512 + 1 * p.val; omega
  | ⟨1, _⟩ => show win0_1.index t (1 : Fin 2) * 2048 + 1 * q.val = win0_3.index t (1 : Fin 2) * 2048 + 1 * q.val; omega

/-- … and for the noise's window -/
theorem emb_noise (t : Fin cfg0.N) (p : Fin 512) (q : Fin 2048) :
    (((cfg0.win 2).blk t).view.emb (ix2 p q) : S4096x4096.Idx) = ((cfg0.win 3).blk t).view.emb (ix2 p q) := by
  obtain ⟨e00, e01, e10, e11, e20, e21, -, -⟩ := index_facts t
  funext a; apply Fin.ext
  match a with
  | ⟨0, _⟩ => show win0_2.index t (0 : Fin 2) * 512 + 1 * p.val = win0_3.index t (0 : Fin 2) * 512 + 1 * p.val; omega
  | ⟨1, _⟩ => show win0_2.index t (1 : Fin 2) * 2048 + 1 * q.val = win0_3.index t (1 : Fin 2) * 2048 + 1 * q.val; omega

/-- an index of the weight array is in point t's block iff each coordinate is in the block's range on its axis -/
theorem mem_block (t : Fin cfg0.N) (i : S4096x4096.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v4).slice (win0_3.rect t)).set ↔ _
  rw [View.set_slice_whole, Rect.mem_set_unit]
  exact Iff.rfl

/-- the 16 blocks tile the array: the index (r, s) is in the block of the point with block index (r / 512, s / 2048) -/
theorem cover (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := index_onto ⟨(i 0).val / 512, by omega⟩ ⟨(i 1).val / 2048, by omega⟩
  have q0 : win0_3.index t (0 : Fin 2) = (i 0).val / 512 := congrFun ht 0
  have q1 : win0_3.index t (1 : Fin 2) = (i 1).val / 2048 := congrFun ht 1
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-- what point t writes back is block t of the weight function: the stored entry (p, q) is the payload at the
    three input blocks' entries (p, q), which are the three arrays at the index the entry sits at -/
theorem flushed_eq (c : Dev nD) (t : Fin cfg0.N) :
    (dat0 V c).flushed 3 t = ((cfg0.win 3).blk t).view.read (Elt Ideal) (weights V c) := by
  show (cfg0.win 3).cut (grid0.coords t) ((dat0 V c).after 3 t) = _
  rw [after0_3]
  unfold wblock
  rw [View.canon_unit_zero zero_offsets]
  simp only [View.ld_unit_zero (S := S512x2048) zero_offsets]
  funext y
  obtain ⟨p, q, rfl⟩ : ∃ (p : Fin 512) (q : Fin 2048), y = ix2 p q := ⟨y 0, y 1, eq_ix2 y⟩
  show k0_pay1 (F := Ideal) (iblk0 V c 0 t) (iblk0 V c 1 t) (iblk0 V c 2 t) (ix2 p q)
    = weights V c (((cfg0.win 3).blk t).view.emb (ix2 p q))
  refine Pay.weight_payload _ _ _ p q _ _ _ _ ?_ ?_ ?_
  · show V c main_arg1 (((cfg0.win 0).blk t).view.emb (ix2 p q)) = V c main_arg1 (((cfg0.win 3).blk t).view.emb (ix2 p q))
    rw [emb_mean]
  · show V c main_arg2 (((cfg0.win 1).blk t).view.emb (ix2 p q)) = V c main_arg2 (((cfg0.win 3).blk t).view.emb (ix2 p q))
    rw [emb_spread]
  · show V c main_arg5 (((cfg0.win 2).blk t).view.emb (ix2 p q)) = V c main_arg5 (((cfg0.win 3).blk t).view.emb (ix2 p q))
    rw [emb_noise]

/-- after the first region the weight array is the reference's weight stage of the three argument arrays -/
theorem weights_final (c : Dev nD) :
    (dat0 (F := Ideal) V c).arrAt 3 cfg0.N = Cert.ReferenceIdeal.Read.val_main_v2 (F := Ideal) (V c main_arg1) (V c main_arg2) (V c main_arg5) :=
  (dat0 V c).arrAt_eq_of_cover 3 (weights V c) (fun t _ => flushed_eq V c t) cover

end Cert.KernelIdeal.Val

end
-- ==== Proof.SpecIsReference.lean ====
/- The specification  out (r, s) = (∑ k < 4096, X (r, k) · Wt (k, s)) + Bv (0, s)  taken at the reference's own
   weight stage and at its bias stage (the bias vector as a one-row array) is the reference's last stage: the
   reference's product reads its operands at (r, k) and (k, s), and its two broadcasts of the bias vector read
   entry s of it. -/
import proofs.«160198_j24034636989081_2_alg».proof.Proof.OutSpec
import proofs.«160198_j24034636989081_2_alg».proof.Proof.Gen.KernelIdeal
import proofs.«160198_j24034636989081_2_alg».proof.Proof.Gen.ReferenceIdeal.Read
import Idealize.ShloMosaic.Lib.ValueLayout

noncomputable section

open scoped BigOperators

namespace Cert.KernelIdeal.Val

open Idealize.ShloMosaic Idealize.ShloMosaic.ValueIdx

open Cert.ReferenceIdeal.Read in
/-- the specification at the reference's weight stage and bias stage is the reference's result -/
theorem spec_is_reference
    (x0 : (⟨Cert.ReferenceIdeal.S8192x4096, .f32⟩ : BufTy).Contents (Elt Ideal))
    (x1 x2 : (⟨Cert.ReferenceIdeal.S4096x4096, .f32⟩ : BufTy).Contents (Elt Ideal))
    (x3 x4 : (⟨Cert.ReferenceIdeal.S4096, .f32⟩ : BufTy).Contents (Elt Ideal))
    (x5 : (⟨Cert.ReferenceIdeal.S4096x4096, .f32⟩ : BufTy).Contents (Elt Ideal))
    (x6 : (⟨Cert.ReferenceIdeal.S4096, .f32⟩ : BufTy).Contents (Elt Ideal)) :
    outSpec x0 (val_main_v2 (F := Ideal) x1 x2 x5)
      (shapeCast Cert.KernelIdeal.S1x4096 (val_main_v5 (F := Ideal) x3 x4 x6) Cert.KernelIdeal.Facts₀.shapeCasts_S4096_S1x4096)
    = val_main_v9 (F := Ideal) x0 x1 x2 x3 x4 x5 x6 := by
  funext i
  rw [val_main_v9_apply, val_main_v6_apply, val_main_v8_apply, val_main_v7_apply]
  generalize val_main_v2 (F := Ideal) x1 x2 x5 = W
  generalize val_main_v5 (F := Ideal) x3 x4 x6 = B
  unfold outSpec
  refine congrArg₂ (· + ·) (Finset.sum_congr rfl fun k _ => ?_) ?_
  · -- the product's operands at (r, k) and (k, s)
    have el : lidx_main_v6 i k = ix2 (⟨(i 0).val, (i 0).isLt⟩ : Fin 8192) (⟨k.val, k.isLt⟩ : Fin 4096) :=
      funext fun a => match a with | ⟨0, _⟩ => rfl | ⟨1, _⟩ => rfl
    have er : ridx_main_v6 i k = ix2 (⟨k.val, k.isLt⟩ : Fin 4096) (⟨(i 1).val, (i 1).isLt⟩ : Fin 4096) :=
      funext fun a => match a with | ⟨0, _⟩ => rfl | ⟨1, _⟩ => rfl
    exact congrArg₂ (· * ·) ((rd2_of_lt x0 _ _ (i 0).isLt k.isLt).trans (congrArg x0 el.symm))
      ((rd2_of_lt W _ _ k.isLt (i 1).isLt).trans (congrArg W er.symm))
  · -- the bias row's entry s is the bias vector's entry s
    have eb : idx_main_v7 (idx_main_v8 i) = ix1 (⟨(i 1).val, (i 1).isLt⟩ : Fin 4096) :=
      funext fun a => match a with | ⟨0, _⟩ => rfl
    exact ((rd2_of_lt _ 0 _ Nat.one_pos (i 1).isLt).trans
      (shapeCast_a_1a_apply B _ (⟨0, Nat.one_pos⟩ : Fin 1) (⟨(i 1).val, (i 1).isLt⟩ : Fin 4096))).trans (congrArg B eb.symm)

end Cert.KernelIdeal.Val

end
-- ==== Proof.Bridge.lean ====
/-
  The kernel's result array is the reference's last stage. The matmul region leaves the specification's function of
  the arrays it was entered with; those are the activations as launched (no host operation and no region writes
  them), the weight array at what the first region left — the reference's weight stage of the three weight arguments
  as launched —, and the bias row the host computed before the regions — the reference's bias stage, reshaped to a
  row. The specification at those stages is the reference's product plus bias.
-/
import proofs.«160198_j24034636989081_2_alg».proof.Proof.WholeRun
import proofs.«160198_j24034636989081_2_alg».proof.Proof.MatmulValue
import proofs.«160198_j24034636989081_2_alg».proof.Proof.WeightValue
import proofs.«160198_j24034636989081_2_alg».proof.Proof.SpecIsReference
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.StableHlo
open Idealize.SL.Sem

variable (m : (ℓ : Loc nD τ sig) → Buf (Elt Ideal) ℓ)

/-- The three weight arguments reach the first region as launched. -/
theorem V2_arg1 (c : Dev nD) : Fr.V2 m c main_arg1 = m ((c : Thread nD τ).loc main_arg1) :=
  (Gen.V2_of m c main_arg1 (by decide)).trans ((Gen.V1_of m c main_arg1 (by decide)).trans rfl)
theorem V2_arg2 (c : Dev nD) : Fr.V2 m c main_arg2 = m ((c : Thread nD τ).loc main_arg2) :=
  (Gen.V2_of m c main_arg2 (by decide)).trans ((Gen.V1_of m c main_arg2 (by decide)).trans rfl)
theorem V2_arg5 (c : Dev nD) : Fr.V2 m c main_arg5 = m ((c : Thread nD τ).loc main_arg5) :=
  (Gen.V2_of m c main_arg5 (by decide)).trans ((Gen.V1_of m c main_arg5 (by decide)).trans rfl)

/-- The activations reach the matmul region as launched. -/
theorem V3_arg0 (c : Dev nD) : Fr.V3 m c main_arg0 = m ((c : Thread nD τ).loc main_arg0) :=
  (W3_of_ne m c main_arg0 (by decide)).trans
    ((Gen.V2_of m c main_arg0 (by decide)).trans ((Gen.V1_of m c main_arg0 (by decide)).trans rfl))

/-- The weight array reaches the matmul region at the reference's weight stage. -/
theorem V3_weights (c : Dev nD) :
    Fr.V3 m c main_v4 = Cert.ReferenceIdeal.Read.val_main_v2 (F := Ideal) (m ((c : Thread nD τ).loc main_arg1)) (m ((c : Thread nD τ).loc main_arg2)) (m ((c : Thread nD τ).loc main_arg5)) :=
  (W3_arr m c 3).trans ((weights_final (Fr.V2 m) c).trans (by rw [V2_arg1, V2_arg2, V2_arg5]))

/-- The bias row reaches the matmul region at the reference's bias stage, reshaped to a row: the host computed it
    before the regions by the same operations as the reference. -/
theorem V3_bias (c : Dev nD) :
    Fr.V3 m c main_v3 = shapeCast S1x4096 (Cert.ReferenceIdeal.Read.val_main_v5 (F := Ideal) (m ((c : Thread nD τ).loc main_arg3)) (m ((c : Thread nD τ).loc main_arg4)) (m ((c : Thread nD τ).loc main_arg6))) Facts₀.shapeCasts_S4096_S1x4096 :=
  (W3_of_ne m c main_v3 (by decide)).trans (by
    show StableHlo.after hostOps0_1 (StableHlo.after hostOps0 (fun b => m (c, b))) (Proc.devRef .tc main_v3) = _
    after_results_simp
    rfl)

/-- THE KERNEL'S RESULT: the reference's last stage of the arguments as launched. -/
theorem kernel_value (c : Dev nD) :
    W4 m c (Proc.devRef .tc main_v5) = Cert.ReferenceIdeal.Read.val_main_v9 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W4_main_v5 m c).trans ((out_final (Fr.V3 m) c).trans (by
    rw [V3_arg0, V3_weights, V3_bias]
    exact spec_is_reference _ _ _ _ _ _ _))

end Cert.KernelIdeal.Val

end
-- ==== Proof.lean ====
/-
  The certificate. Both kernel programs (the word-level one and its idealization, whose texts agree: the ideal pass
  rewrote nothing) run to the end, fault nowhere and leave every unscoped buffer at named contents: two host
  stretches, the weight-building region, the matmul region whose accumulator is carried from block to block. The
  argument arrays read back to the launch memory (the three frames; the reference's is its run with the result
  dropped). At the extended reals the kernel's result array is  x · (mean + softplus(spread) · noise) + bias  with the
  4096-term sums grouped in eight blocks of 512 and the softplus spelt with 0 − |r|; the reference's is the same
  with whole sums and − |r|: equal, sums of extended reals regrouping freely and the two spellings being one function.
-/
import proofs.«160198_j24034636989081_2_alg».proof.Defs
import proofs.«160198_j24034636989081_2_alg».proof.Proof.Gen.Kernel
import proofs.«160198_j24034636989081_2_alg».proof.Proof.Gen.KernelIdeal
import proofs.«160198_j24034636989081_2_alg».proof.Proof.Gen.ReferenceIdeal
import proofs.«160198_j24034636989081_2_alg».proof.Proof.Gen.ReferenceIdeal.Run
import proofs.«160198_j24034636989081_2_alg».proof.Proof.Gen.ReferenceIdeal.Read
import proofs.«160198_j24034636989081_2_alg».proof.Proof.Gen.Pre_finite_inputs
import proofs.«160198_j24034636989081_2_alg».proof.Proof.WholeRun
import proofs.«160198_j24034636989081_2_alg».proof.Proof.BitsWholeRun
import proofs.«160198_j24034636989081_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel: its run, each argument read back to the launch memory. -/
theorem frame_k : Cert.frame_Kernel (hKernel := Cert.Kernel.Gen.facts) (hPre_finite_inputs := Cert.Pre_finite_inputs.Gen.facts) := fun m ρ _ =>
  (θ_run Cert.Kernel.defs _ _).mono (fun r h c =>
    ⟨(h c Cert.Kernel.main_arg0 (by decide)).trans (Cert.Kernel.Fr.W4_main_arg0 m c),
      (h c Cert.Kernel.main_arg1 (by decide)).trans (Cert.Kernel.Fr.W4_main_arg1 m c),
      (h c Cert.Kernel.main_arg2 (by decide)).trans (Cert.Kernel.Fr.W4_main_arg2 m c),
      (h c Cert.Kernel.main_arg3 (by decide)).trans (Cert.Kernel.Fr.W4_main_arg3 m c),
      (h c Cert.Kernel.main_arg4 (by decide)).trans (Cert.Kernel.Fr.W4_main_arg4 m c),
      (h c Cert.Kernel.main_arg5 (by decide)).trans (Cert.Kernel.Fr.W4_main_arg5 m c),
      (h c Cert.Kernel.main_arg6 (by decide)).trans (Cert.Kernel.Fr.W4_main_arg6 m c)⟩)
    (Cert.Kernel.Fr.run_all (F := Bits) m ρ)

/-- The idealized kernel: the same. -/
theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun r h c =>
    ⟨(h c Cert.KernelIdeal.main_arg0 (by decide)).trans (Cert.KernelIdeal.Fr.W4_main_arg0 m c),
      (h c Cert.KernelIdeal.main_arg1 (by decide)).trans (Cert.KernelIdeal.Fr.W4_main_arg1 m c),
      (h c Cert.KernelIdeal.main_arg2 (by decide)).trans (Cert.KernelIdeal.Fr.W4_main_arg2 m c),
      (h c Cert.KernelIdeal.main_arg3 (by decide)).trans (Cert.KernelIdeal.Fr.W4_main_arg3 m c),
      (h c Cert.KernelIdeal.main_arg4 (by decide)).trans (Cert.KernelIdeal.Fr.W4_main_arg4 m c),
      (h c Cert.KernelIdeal.main_arg5 (by decide)).trans (Cert.KernelIdeal.Fr.W4_main_arg5 m c),
      (h c Cert.KernelIdeal.main_arg6 (by decide)).trans (Cert.KernelIdeal.Fr.W4_main_arg6 m c)⟩)
    (Cert.KernelIdeal.Fr.run_all (F := Ideal) m ρ)

/-- The reference: its run with the result dropped. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- The two runs from memories agreeing on the arguments end with equal results: the kernel's result array is the
    reference's last stage of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Fr.W4 m c (Proc.devRef .tc Cert.KernelIdeal.main_v5), ?_, ?_⟩
  · exact (θ_run Cert.KernelIdeal.defs _ _).mono (fun r h c =>
      ⟨h c Cert.KernelIdeal.main_v5 (by decide),
      (h c Cert.KernelIdeal.main_arg0 (by decide)).trans (Cert.KernelIdeal.Fr.W4_main_arg0 m c),
      (h c Cert.KernelIdeal.main_arg1 (by decide)).trans (Cert.KernelIdeal.Fr.W4_main_arg1 m c),
      (h c Cert.KernelIdeal.main_arg2 (by decide)).trans (Cert.KernelIdeal.Fr.W4_main_arg2 m c),
      (h c Cert.KernelIdeal.main_arg3 (by decide)).trans (Cert.KernelIdeal.Fr.W4_main_arg3 m c),
      (h c Cert.KernelIdeal.main_arg4 (by decide)).trans (Cert.KernelIdeal.Fr.W4_main_arg4 m c),
      (h c Cert.KernelIdeal.main_arg5 (by decide)).trans (Cert.KernelIdeal.Fr.W4_main_arg5 m c),
      (h c Cert.KernelIdeal.main_arg6 (by decide)).trans (Cert.KernelIdeal.Fr.W4_main_arg6 m c)⟩)
      (Cert.KernelIdeal.Fr.run_all (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v9_eq, (hagree c).1, (hagree c).2.1, (hagree c).2.2.1, (hagree c).2.2.2.1,
      (hagree c).2.2.2.2.1, (hagree c).2.2.2.2.2.1, (hagree c).2.2.2.2.2.2]
    exact (Cert.KernelIdeal.Val.kernel_value m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
